-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x128 : Shape := ⟨2, ![128, 128]⟩
abbrev S128 : Shape := ⟨1, ![128]⟩
abbrev S500000 : Shape := ⟨1, ![500000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x128 .f32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S200000x128 .f32) (main_arg1 : FVec F S200000x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : IVec S500000 32) (main_arg15 : IVec S500000 32) (main_arg16 : IVec S500000 32) (main_arg17 : IVec S500000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S200000x128 : Shape := ⟨2, ![200000, 128]⟩
abbrev S128x128 : Shape := ⟨2, ![128, 128]⟩
abbrev S128 : Shape := ⟨1, ![128]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩
abbrev S1x128 : Shape := ⟨2, ![1, 128]⟩
abbrev S5000x128 : Shape := ⟨2, ![5000, 128]⟩
abbrev S1x200000x128 : Shape := ⟨3, ![1, 200000, 128]⟩
abbrev S2x200000x128 : Shape := ⟨3, ![2, 200000, 128]⟩

abbrev nBuf : Space → Nat
  | .hbm => 129
  | .vmem => 36
  | .smem => 0
  | _ => 0

abbrev hbmTy0_0 (i : Nat) : BufTy := match i % 128 with
  | 0 => ⟨S200000x128, .f32⟩
  | 1 => ⟨S200000x128, .f32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S500000, .i32⟩
  | 15 => ⟨S500000, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x128, .f32⟩
  | 27 => ⟨S_, .f32⟩
  | 28 => ⟨S200000x128, .f32⟩
  | 29 => ⟨S500000x1, .i32⟩
  | 30 => ⟨S200000x128, .f32⟩
  | 31 => ⟨S_, .f32⟩
  | 32 => ⟨S500000, .f32⟩
  | 33 => ⟨S_, .f32⟩
  | 34 => ⟨S200000, .f32⟩
  | 35 => ⟨S500000x1, .i32⟩
  | 36 => ⟨S200000, .f32⟩
  | 37 => ⟨S_, .f32⟩
  | 38 => ⟨S200000, .f32⟩
  | 39 => ⟨S200000, .f32⟩
  | 40 => ⟨S200000x1, .f32⟩
  | 41 => ⟨S200000x128, .f32⟩
  | 42 => ⟨S200000x128, .f32⟩
  | 43 => ⟨S1x128, .f32⟩
  | 44 => ⟨S200000x128, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x128, .f32⟩
  | 54 => ⟨S_, .f32⟩
  | 55 => ⟨S200000x128, .f32⟩
  | 56 => ⟨S500000x1, .i32⟩
  | 57 => ⟨S200000x128, .f32⟩
  | 58 => ⟨S_, .f32⟩
  | 59 => ⟨S500000, .f32⟩
  | 60 => ⟨S_, .f32⟩
  | 61 => ⟨S200000, .f32⟩
  | 62 => ⟨S500000x1, .i32⟩
  | 63 => ⟨S200000, .f32⟩
  | 64 => ⟨S_, .f32⟩
  | 65 => ⟨S200000, .f32⟩
  | 66 => ⟨S200000, .f32⟩
  | 67 => ⟨S200000x1, .f32⟩
  | 68 => ⟨S200000x128, .f32⟩
  | 69 => ⟨S200000x128, .f32⟩
  | 70 => ⟨S1x128, .f32⟩
  | 71 => ⟨S200000x128, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x128, .f32⟩
  | 81 => ⟨S_, .f32⟩
  | 82 => ⟨S200000x128, .f32⟩
  | 83 => ⟨S500000x1, .i32⟩
  | 84 => ⟨S200000x128, .f32⟩
  | 85 => ⟨S_, .f32⟩
  | 86 => ⟨S500000, .f32⟩
  | 87 => ⟨S_, .f32⟩
  | 88 => ⟨S200000, .f32⟩
  | 89 => ⟨S500000x1, .i32⟩
  | 90 => ⟨S200000, .f32⟩
  | 91 => ⟨S_, .f32⟩
  | 92 => ⟨S200000, .f32⟩
  | 93 => ⟨S200000, .f32⟩
  | 94 => ⟨S200000x1, .f32⟩
  | 95 => ⟨S200000x128, .f32⟩
  | 96 => ⟨S200000x128, .f32⟩
  | 97 => ⟨S1x128, .f32⟩
  | 98 => ⟨S200000x128, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x128, .f32⟩
  | 108 => ⟨S_, .f32⟩
  | 109 => ⟨S200000x128, .f32⟩
  | 110 => ⟨S500000x1, .i32⟩
  | 111 => ⟨S200000x128, .f32⟩
  | 112 => ⟨S_, .f32⟩
  | 113 => ⟨S500000, .f32⟩
  | 114 => ⟨S_, .f32⟩
  | 115 => ⟨S200000, .f32⟩
  | 116 => ⟨S500000x1, .i32⟩
  | 117 => ⟨S200000, .f32⟩
  | 118 => ⟨S_, .f32⟩
  | 119 => ⟨S200000, .f32⟩
  | 120 => ⟨S200000, .f32⟩
  | 121 => ⟨S200000x1, .f32⟩
  | 122 => ⟨S200000x128, .f32⟩
  | 123 => ⟨S200000x128, .f32⟩
  | 124 => ⟨S1x128, .f32⟩
  | 125 => ⟨S200000x128, .f32⟩
  | 126 => ⟨S1x200000x128, .f32⟩
  | 127 => ⟨S1x200000x128, .f32⟩
  | _ => ⟨S200000x128, .f32⟩

abbrev hbmTy0_1 (i : Nat) : BufTy := match i % 128 with
  | 0 => ⟨S2x200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_16 : Ref sig .tc := ⟨.hbm, 99, rfl⟩
abbrev main_v63 : Ref sig .tc := ⟨.hbm, 100, rfl⟩
abbrev main_v64 : Ref sig .tc := ⟨.hbm, 101, rfl⟩
abbrev main_c_17 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_19 : Ref sig .tc := ⟨.hbm, 112, rfl⟩
abbrev main_v73 : Ref sig .tc := ⟨.hbm, 113, rfl⟩
abbrev main_cst_20 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_21 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S200000x128_S1x200000x128_1_2 : S200000x128.BroadcastsInDim S1x200000x128 (![1, 2] : Fin 2 → Fin S1x200000x128.rank)
  concatenates_S1x200000x128_S1x200000x128_S2x200000x128_d0 : Shape.Concatenates [S1x200000x128, S1x200000x128] S2x200000x128 0
  gather_S200000x128_S500000x1_S500000x128_1_0_n_n_0_1_1128_wf : GatherDims.WF S200000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S200000x128.size a
  hwx0_1 : ∀ i : grid0.Coords, EltTy.bits .f32 = 32 ∨ (Rect.block (s := S200000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S200000x128.size a
  hwx0_5 : ∀ i : grid0.Coords, EltTy.bits .f32 = 32 ∨ (Rect.block (s := S200000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S200000x128.size a
  hwx1_1 : ∀ i : grid1.Coords, EltTy.bits .f32 = 32 ∨ (Rect.block (s := S200000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S200000x128.size a
  hwx1_5 : ∀ i : grid1.Coords, EltTy.bits .f32 = 32 ∨ (Rect.block (s := S200000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S200000x128.size a
  hwx2_5 : ∀ i : grid2.Coords, EltTy.bits .f32 = 32 ∨ (Rect.block (s := S200000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S200000x128.size a
  hwx3_1 : ∀ i : grid3.Coords, EltTy.bits .f32 = 32 ∨ (Rect.block (s := S200000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S200000x128.size a
  hwx3_5 : ∀ i : grid3.Coords, EltTy.bits .f32 = 32 ∨ (Rect.block (s := S200000x128) S5000x128.size (cc3_transform_5 i) (hinb3_5 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x128 : Shape := ⟨2, ![200000, 128]⟩
abbrev S128x128 : Shape := ⟨2, ![128, 128]⟩
abbrev S128 : Shape := ⟨1, ![128]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩
abbrev S1x128 : Shape := ⟨2, ![1, 128]⟩
abbrev S1x200000x128 : Shape := ⟨3, ![1, 200000, 128]⟩
abbrev S2x200000x128 : Shape := ⟨3, ![2, 200000, 128]⟩

abbrev nBuf : Space → Nat
  | .hbm => 161
  | .vmem => 0
  | .smem => 0
  | _ => 0

abbrev hbmTy0_0 (i : Nat) : BufTy := match i % 128 with
  | 0 => ⟨S200000x128, .f32⟩
  | 1 => ⟨S200000x128, .f32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S500000, .i32⟩
  | 15 => ⟨S500000, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x128, .f32⟩
  | 27 => ⟨S_, .f32⟩
  | 28 => ⟨S200000x128, .f32⟩
  | 29 => ⟨S500000x1, .i32⟩
  | 30 => ⟨S200000x128, .f32⟩
  | 31 => ⟨S_, .f32⟩
  | 32 => ⟨S500000, .f32⟩
  | 33 => ⟨S_, .f32⟩
  | 34 => ⟨S200000, .f32⟩
  | 35 => ⟨S500000x1, .i32⟩
  | 36 => ⟨S200000, .f32⟩
  | 37 => ⟨S_, .f32⟩
  | 38 => ⟨S200000, .f32⟩
  | 39 => ⟨S200000, .f32⟩
  | 40 => ⟨S200000x1, .f32⟩
  | 41 => ⟨S200000x128, .f32⟩
  | 42 => ⟨S200000x128, .f32⟩
  | 43 => ⟨S200000x128, .f32⟩
  | 44 => ⟨S200000x128, .f32⟩
  | 45 => ⟨S200000x128, .f32⟩
  | 46 => ⟨S1x128, .f32⟩
  | 47 => ⟨S200000x128, .f32⟩
  | 48 => ⟨S200000x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S200000x128, .f32⟩
  | 60 => ⟨S500000x1, .i32⟩
  | 61 => ⟨S200000x128, .f32⟩
  | 62 => ⟨S_, .f32⟩
  | 63 => ⟨S500000, .f32⟩
  | 64 => ⟨S_, .f32⟩
  | 65 => ⟨S200000, .f32⟩
  | 66 => ⟨S500000x1, .i32⟩
  | 67 => ⟨S200000, .f32⟩
  | 68 => ⟨S_, .f32⟩
  | 69 => ⟨S200000, .f32⟩
  | 70 => ⟨S200000, .f32⟩
  | 71 => ⟨S200000x1, .f32⟩
  | 72 => ⟨S200000x128, .f32⟩
  | 73 => ⟨S200000x128, .f32⟩
  | 74 => ⟨S200000x128, .f32⟩
  | 75 => ⟨S200000x128, .f32⟩
  | 76 => ⟨S200000x128, .f32⟩
  | 77 => ⟨S1x128, .f32⟩
  | 78 => ⟨S200000x128, .f32⟩
  | 79 => ⟨S200000x128, .f32⟩
  | 80 => ⟨S_, .f32⟩
  | 81 => ⟨S_, .f32⟩
  | 82 => ⟨S200000x128, .f32⟩
  | 83 => ⟨S200000x128, .i1⟩
  | 84 => ⟨S_, .f32⟩
  | 85 => ⟨S200000x128, .f32⟩
  | 86 => ⟨S200000x128, .f32⟩
  | 87 => ⟨S200000x128, .f32⟩
  | 88 => ⟨S_, .f32⟩
  | 89 => ⟨S_, .f32⟩
  | 90 => ⟨S200000x128, .f32⟩
  | 91 => ⟨S200000x128, .i1⟩
  | 92 => ⟨S_, .f32⟩
  | 93 => ⟨S200000x128, .f32⟩
  | 94 => ⟨S200000x128, .f32⟩
  | 95 => ⟨S200000x128, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x128, .f32⟩
  | 105 => ⟨S_, .f32⟩
  | 106 => ⟨S200000x128, .f32⟩
  | 107 => ⟨S500000x1, .i32⟩
  | 108 => ⟨S200000x128, .f32⟩
  | 109 => ⟨S_, .f32⟩
  | 110 => ⟨S500000, .f32⟩
  | 111 => ⟨S_, .f32⟩
  | 112 => ⟨S200000, .f32⟩
  | 113 => ⟨S500000x1, .i32⟩
  | 114 => ⟨S200000, .f32⟩
  | 115 => ⟨S_, .f32⟩
  | 116 => ⟨S200000, .f32⟩
  | 117 => ⟨S200000, .f32⟩
  | 118 => ⟨S200000x1, .f32⟩
  | 119 => ⟨S200000x128, .f32⟩
  | 120 => ⟨S200000x128, .f32⟩
  | 121 => ⟨S200000x128, .f32⟩
  | 122 => ⟨S200000x128, .f32⟩
  | 123 => ⟨S200000x128, .f32⟩
  | 124 => ⟨S1x128, .f32⟩
  | 125 => ⟨S200000x128, .f32⟩
  | 126 => ⟨S200000x128, .f32⟩
  | 127 => ⟨S_, .i32⟩
  | _ => ⟨S200000x128, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x128, .f32⟩
  | 8 => ⟨S_, .f32⟩
  | 9 => ⟨S200000x128, .f32⟩
  | 10 => ⟨S500000x1, .i32⟩
  | 11 => ⟨S200000x128, .f32⟩
  | 12 => ⟨S_, .f32⟩
  | 13 => ⟨S500000, .f32⟩
  | 14 => ⟨S_, .f32⟩
  | 15 => ⟨S200000, .f32⟩
  | 16 => ⟨S500000x1, .i32⟩
  | 17 => ⟨S200000, .f32⟩
  | 18 => ⟨S_, .f32⟩
  | 19 => ⟨S200000, .f32⟩
  | 20 => ⟨S200000, .f32⟩
  | 21 => ⟨S200000x1, .f32⟩
  | 22 => ⟨S200000x128, .f32⟩
  | 23 => ⟨S200000x128, .f32⟩
  | 24 => ⟨S200000x128, .f32⟩
  | 25 => ⟨S200000x128, .f32⟩
  | 26 => ⟨S200000x128, .f32⟩
  | 27 => ⟨S1x128, .f32⟩
  | 28 => ⟨S200000x128, .f32⟩
  | 29 => ⟨S200000x128, .f32⟩
  | 30 => ⟨S1x200000x128, .f32⟩
  | 31 => ⟨S1x200000x128, .f32⟩
  | 32 => ⟨S2x200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v50 : Ref sig .tc := ⟨.hbm, 87, rfl⟩
abbrev main_cst_11 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v51 : Ref sig .tc := ⟨.hbm, 95, rfl⟩
abbrev main_c_12 : Ref sig .tc := ⟨.hbm, 96, rfl⟩
abbrev main_v52 : Ref sig .tc := ⟨.hbm, 97, rfl⟩
abbrev main_v53 : Ref sig .tc := ⟨.hbm, 98, rfl⟩
abbrev main_c_13 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_14 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_15 : Ref sig .tc := ⟨.hbm, 109, rfl⟩
abbrev main_v62 : Ref sig .tc := ⟨.hbm, 110, rfl⟩
abbrev main_cst_16 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_17 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_c_18 : Ref sig .tc := ⟨.hbm, 127, rfl⟩
abbrev main_v77 : Ref sig .tc := ⟨.hbm, 128, rfl⟩
abbrev main_v78 : Ref sig .tc := ⟨.hbm, 129, rfl⟩
abbrev main_c_19 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_20 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_21 : Ref sig .tc := ⟨.hbm, 140, rfl⟩
abbrev main_v87 : Ref sig .tc := ⟨.hbm, 141, rfl⟩
abbrev main_cst_22 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_23 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S200000x128_S1x200000x128_1_2 : S200000x128.BroadcastsInDim S1x200000x128 (![1, 2] : Fin 2 → Fin S1x200000x128.rank)
  concatenates_S1x200000x128_S1x200000x128_S2x200000x128_d0 : Shape.Concatenates [S1x200000x128, S1x200000x128] S2x200000x128 0
  gather_S200000x128_S500000x1_S500000x128_1_0_n_n_0_1_1128_wf : GatherDims.WF S200000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  dot_S200000x128_S128x128_S200000x128_1_0_0_1_n_n_wf : DotDims.WF S200000x128 S128x128 S200000x128 [1] [0] [0] [1] [] []

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KernelPass.lean ====
/-
  What the host stretches of the four-region program leave alone.

  Each stretch of host operations writes only its own intermediate buffers, so every other buffer — in particular
  every argument array — holds after the stretch what it held before; a region changes only its output array, and an
  array it reads through an input window ends as it was entered.  Chaining these from the launch memory gives each
  argument array, at every segment boundary where it is read later, its launch contents.
-/
import proofs.«144046_j51711406244226_1_alg».proof.Proof.Gen.KernelIdeal.Frame
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem

variable {F : FTy → Type} [FloatOps F]

/-! ## The buffers each stretch writes -/

/-- The buffers host stretch 0 writes, in order. -/
abbrev written0 : List (Ref sig .tc) := [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_v19]
theorem written0_covers : (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0 does not write is as before it. -/
theorem kept0 (W : Valuation τ sig (Elt F)) (r : Ref sig .tc) (h : r ∉ written0) :
    StableHlo.after hostOps0 W (Proc.devRef .tc r) = W (Proc.devRef .tc r) :=
  StableHlo.after_of_writes_sub hostOps0 W written0_covers h

/-- The buffers host stretch 1 writes, in order. -/
abbrev written1 : List (Ref sig .tc) := [main_c_4, main_v21, main_v22, main_c_5, main_v23, main_v24, main_v25, main_v26, main_v27, main_cst_6, main_v28, main_v29, main_v30, main_cst_7, main_v31, main_cst_8, main_v32, main_v33, main_v34, main_cst_9, main_v35, main_v36, main_v37, main_v38, main_v39, main_v40]
theorem written1_covers : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 1 does not write is as before it. -/
theorem kept1 (W : Valuation τ sig (Elt F)) (r : Ref sig .tc) (h : r ∉ written1) :
    StableHlo.after hostOps1 W (Proc.devRef .tc r) = W (Proc.devRef .tc r) :=
  StableHlo.after_of_writes_sub hostOps1 W written1_covers h

/-- The buffers host stretch 2 writes, in order. -/
abbrev written2 : List (Ref sig .tc) := [main_c_10, main_v42, main_v43, main_c_11, main_v44, main_v45, main_v46, main_v47, main_v48, main_cst_12, main_v49, main_v50, main_v51, main_cst_13, main_v52, main_cst_14, main_v53, main_v54, main_v55, main_cst_15, main_v56, main_v57, main_v58, main_v59, main_v60, main_v61]
theorem written2_covers : (hostOps2 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 2 does not write is as before it. -/
theorem kept2 (W : Valuation τ sig (Elt F)) (r : Ref sig .tc) (h : r ∉ written2) :
    StableHlo.after hostOps2 W (Proc.devRef .tc r) = W (Proc.devRef .tc r) :=
  StableHlo.after_of_writes_sub hostOps2 W written2_covers h

/-- The buffers host stretch 3 writes, in order. -/
abbrev written3 : List (Ref sig .tc) := [main_c_16, main_v63, main_v64, main_c_17, main_v65, main_v66, main_v67, main_v68, main_v69, main_cst_18, main_v70, main_v71, main_v72, main_cst_19, main_v73, main_cst_20, main_v74, main_v75, main_v76, main_cst_21, main_v77, main_v78, main_v79, main_v80, main_v81, main_v82]
theorem written3_covers : (hostOps3 : List (HloOp τ sig (Elt F))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 3 does not write is as before it. -/
theorem kept3 (W : Valuation τ sig (Elt F)) (r : Ref sig .tc) (h : r ∉ written3) :
    StableHlo.after hostOps3 W (Proc.devRef .tc r) = W (Proc.devRef .tc r) :=
  StableHlo.after_of_writes_sub hostOps3 W written3_covers h

/-- The buffers host stretch 4 writes, in order. -/
abbrev written4 : List (Ref sig .tc) := [main_v84, main_v85, main_v86]
theorem written4_covers : (hostOps4 : List (HloOp τ sig (Elt F))).Forall fun op => op.writes ⊆ (written4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 4 does not write is as before it. -/
theorem kept4 (W : Valuation τ sig (Elt F)) (r : Ref sig .tc) (h : r ∉ written4) :
    StableHlo.after hostOps4 W (Proc.devRef .tc r) = W (Proc.devRef .tc r) :=
  StableHlo.after_of_writes_sub hostOps4 W written4_covers h

variable (m : (ℓ : Loc nD τ sig) → Buf (Elt F) ℓ) (ρ : Dev nD → PrngReg) (c : Dev nD)

/-! ## The argument arrays at the segment boundaries -/
theorem W1_arg0 : W1 m ρ c (Proc.devRef .tc main_arg0) = m ((c : Thread nD τ).loc main_arg0) :=
  (kept0 (W0 m ρ c) main_arg0 (by decide)).trans rfl
theorem W1_arg1 : W1 m ρ c (Proc.devRef .tc main_arg1) = m ((c : Thread nD τ).loc main_arg1) :=
  (kept0 (W0 m ρ c) main_arg1 (by decide)).trans rfl
theorem W1_arg2 : W1 m ρ c (Proc.devRef .tc main_arg2) = m ((c : Thread nD τ).loc main_arg2) :=
  (kept0 (W0 m ρ c) main_arg2 (by decide)).trans rfl
theorem W1_arg3 : W1 m ρ c (Proc.devRef .tc main_arg3) = m ((c : Thread nD τ).loc main_arg3) :=
  (kept0 (W0 m ρ c) main_arg3 (by decide)).trans rfl
theorem W1_arg5 : W1 m ρ c (Proc.devRef .tc main_arg5) = m ((c : Thread nD τ).loc main_arg5) :=
  (kept0 (W0 m ρ c) main_arg5 (by decide)).trans rfl
theorem W1_arg6 : W1 m ρ c (Proc.devRef .tc main_arg6) = m ((c : Thread nD τ).loc main_arg6) :=
  (kept0 (W0 m ρ c) main_arg6 (by decide)).trans rfl
theorem W1_arg7 : W1 m ρ c (Proc.devRef .tc main_arg7) = m ((c : Thread nD τ).loc main_arg7) :=
  (kept0 (W0 m ρ c) main_arg7 (by decide)).trans rfl
theorem W1_arg8 : W1 m ρ c (Proc.devRef .tc main_arg8) = m ((c : Thread nD τ).loc main_arg8) :=
  (kept0 (W0 m ρ c) main_arg8 (by decide)).trans rfl
theorem W1_arg9 : W1 m ρ c (Proc.devRef .tc main_arg9) = m ((c : Thread nD τ).loc main_arg9) :=
  (kept0 (W0 m ρ c) main_arg9 (by decide)).trans rfl
theorem W1_arg10 : W1 m ρ c (Proc.devRef .tc main_arg10) = m ((c : Thread nD τ).loc main_arg10) :=
  (kept0 (W0 m ρ c) main_arg10 (by decide)).trans rfl
theorem W1_arg11 : W1 m ρ c (Proc.devRef .tc main_arg11) = m ((c : Thread nD τ).loc main_arg11) :=
  (kept0 (W0 m ρ c) main_arg11 (by decide)).trans rfl
theorem W1_arg12 : W1 m ρ c (Proc.devRef .tc main_arg12) = m ((c : Thread nD τ).loc main_arg12) :=
  (kept0 (W0 m ρ c) main_arg12 (by decide)).trans rfl
theorem W1_arg13 : W1 m ρ c (Proc.devRef .tc main_arg13) = m ((c : Thread nD τ).loc main_arg13) :=
  (kept0 (W0 m ρ c) main_arg13 (by decide)).trans rfl
theorem W1_arg14 : W1 m ρ c (Proc.devRef .tc main_arg14) = m ((c : Thread nD τ).loc main_arg14) :=
  (kept0 (W0 m ρ c) main_arg14 (by decide)).trans rfl
theorem W1_arg15 : W1 m ρ c (Proc.devRef .tc main_arg15) = m ((c : Thread nD τ).loc main_arg15) :=
  (kept0 (W0 m ρ c) main_arg15 (by decide)).trans rfl
theorem W1_arg16 : W1 m ρ c (Proc.devRef .tc main_arg16) = m ((c : Thread nD τ).loc main_arg16) :=
  (kept0 (W0 m ρ c) main_arg16 (by decide)).trans rfl
theorem W1_arg17 : W1 m ρ c (Proc.devRef .tc main_arg17) = m ((c : Thread nD τ).loc main_arg17) :=
  (kept0 (W0 m ρ c) main_arg17 (by decide)).trans rfl
theorem W2_arg0 : W2 m ρ c (Proc.devRef .tc main_arg0) = m ((c : Thread nD τ).loc main_arg0) :=
  (W2_of_ne m ρ c main_arg0 (by decide)).trans (W1_arg0 m ρ c)
theorem W2_arg1 : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_arg1 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)
theorem W3_arg0 : W3 m ρ c (Proc.devRef .tc main_arg0) = m ((c : Thread nD τ).loc main_arg0) :=
  (kept1 (W2 m ρ c) main_arg0 (by decide)).trans (W2_arg0 m ρ c)
theorem W3_arg5 : W3 m ρ c (Proc.devRef .tc main_arg5) = m ((c : Thread nD τ).loc main_arg5) :=
  (kept1 (W2 m ρ c) main_arg5 (by decide)).trans (W2_arg5 m ρ c)
theorem W3_arg6 : W3 m ρ c (Proc.devRef .tc main_arg6) = m ((c : Thread nD τ).loc main_arg6) :=
  (kept1 (W2 m ρ c) main_arg6 (by decide)).trans (W2_arg6 m ρ c)
theorem W3_arg8 : W3 m ρ c (Proc.devRef .tc main_arg8) = m ((c : Thread nD τ).loc main_arg8) :=
  (kept1 (W2 m ρ c) main_arg8 (by decide)).trans (W2_arg8 m ρ c)
theorem W3_arg9 : W3 m ρ c (Proc.devRef .tc main_arg9) = m ((c : Thread nD τ).loc main_arg9) :=
  (kept1 (W2 m ρ c) main_arg9 (by decide)).trans (W2_arg9 m ρ c)
theorem W3_arg10 : W3 m ρ c (Proc.devRef .tc main_arg10) = m ((c : Thread nD τ).loc main_arg10) :=
  (kept1 (W2 m ρ c) main_arg10 (by decide)).trans (W2_arg10 m ρ c)
theorem W3_arg11 : W3 m ρ c (Proc.devRef .tc main_arg11) = m ((c : Thread nD τ).loc main_arg11) :=
  (kept1 (W2 m ρ c) main_arg11 (by decide)).trans (W2_arg11 m ρ c)
theorem W3_arg12 : W3 m ρ c (Proc.devRef .tc main_arg12) = m ((c : Thread nD τ).loc main_arg12) :=
  (kept1 (W2 m ρ c) main_arg12 (by decide)).trans (W2_arg12 m ρ c)
theorem W3_arg13 : W3 m ρ c (Proc.devRef .tc main_arg13) = m ((c : Thread nD τ).loc main_arg13) :=
  (kept1 (W2 m ρ c) main_arg13 (by decide)).trans (W2_arg13 m ρ c)
theorem W3_arg14 : W3 m ρ c (Proc.devRef .tc main_arg14) = m ((c : Thread nD τ).loc main_arg14) :=
  (kept1 (W2 m ρ c) main_arg14 (by decide)).trans (W2_arg14 m ρ c)
theorem W3_arg15 : W3 m ρ c (Proc.devRef .tc main_arg15) = m ((c : Thread nD τ).loc main_arg15) :=
  (kept1 (W2 m ρ c) main_arg15 (by decide)).trans (W2_arg15 m ρ c)
theorem W3_arg16 : W3 m ρ c (Proc.devRef .tc main_arg16) = m ((c : Thread nD τ).loc main_arg16) :=
  (kept1 (W2 m ρ c) main_arg16 (by decide)).trans (W2_arg16 m ρ c)
theorem W3_arg17 : W3 m ρ c (Proc.devRef .tc main_arg17) = m ((c : Thread nD τ).loc main_arg17) :=
  (kept1 (W2 m ρ c) main_arg17 (by decide)).trans (W2_arg17 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W4_arg16 : W4 m ρ c (Proc.devRef .tc main_arg16) = m ((c : Thread nD τ).loc main_arg16) :=
  (W4_of_ne m ρ c main_arg16 (by decide)).trans (W3_arg16 m ρ c)
theorem W4_arg17 : W4 m ρ c (Proc.devRef .tc main_arg17) = m ((c : Thread nD τ).loc main_arg17) :=
  (W4_of_ne m ρ c main_arg17 (by decide)).trans (W3_arg17 m ρ c)
theorem W5_arg8 : W5 m ρ c (Proc.devRef .tc main_arg8) = m ((c : Thread nD τ).loc main_arg8) :=
  (kept2 (W4 m ρ c) main_arg8 (by decide)).trans (W4_arg8 m ρ c)
theorem W5_arg9 : W5 m ρ c (Proc.devRef .tc main_arg9) = m ((c : Thread nD τ).loc main_arg9) :=
  (kept2 (W4 m ρ c) main_arg9 (by decide)).trans (W4_arg9 m ρ c)
theorem W5_arg11 : W5 m ρ c (Proc.devRef .tc main_arg11) = m ((c : Thread nD τ).loc main_arg11) :=
  (kept2 (W4 m ρ c) main_arg11 (by decide)).trans (W4_arg11 m ρ c)
theorem W5_arg12 : W5 m ρ c (Proc.devRef .tc main_arg12) = m ((c : Thread nD τ).loc main_arg12) :=
  (kept2 (W4 m ρ c) main_arg12 (by decide)).trans (W4_arg12 m ρ c)
theorem W5_arg13 : W5 m ρ c (Proc.devRef .tc main_arg13) = m ((c : Thread nD τ).loc main_arg13) :=
  (kept2 (W4 m ρ c) main_arg13 (by decide)).trans (W4_arg13 m ρ c)
theorem W5_arg16 : W5 m ρ c (Proc.devRef .tc main_arg16) = m ((c : Thread nD τ).loc main_arg16) :=
  (kept2 (W4 m ρ c) main_arg16 (by decide)).trans (W4_arg16 m ρ c)
theorem W5_arg17 : W5 m ρ c (Proc.devRef .tc main_arg17) = m ((c : Thread nD τ).loc main_arg17) :=
  (kept2 (W4 m ρ c) main_arg17 (by decide)).trans (W4_arg17 m ρ c)
theorem W6_arg11 : W6 m ρ c (Proc.devRef .tc main_arg11) = m ((c : Thread nD τ).loc main_arg11) :=
  (W6_of_ne m ρ c main_arg11 (by decide)).trans (W5_arg11 m ρ c)
theorem W6_arg12 : W6 m ρ c (Proc.devRef .tc main_arg12) = m ((c : Thread nD τ).loc main_arg12) :=
  (W6_of_ne m ρ c main_arg12 (by decide)).trans (W5_arg12 m ρ c)
theorem W6_arg13 : W6 m ρ c (Proc.devRef .tc main_arg13) = m ((c : Thread nD τ).loc main_arg13) :=
  (W6_of_ne m ρ c main_arg13 (by decide)).trans (W5_arg13 m ρ c)
theorem W6_arg16 : W6 m ρ c (Proc.devRef .tc main_arg16) = m ((c : Thread nD τ).loc main_arg16) :=
  (W6_of_ne m ρ c main_arg16 (by decide)).trans (W5_arg16 m ρ c)
theorem W6_arg17 : W6 m ρ c (Proc.devRef .tc main_arg17) = m ((c : Thread nD τ).loc main_arg17) :=
  (W6_of_ne m ρ c main_arg17 (by decide)).trans (W5_arg17 m ρ c)
theorem W7_arg11 : W7 m ρ c (Proc.devRef .tc main_arg11) = m ((c : Thread nD τ).loc main_arg11) :=
  (kept3 (W6 m ρ c) main_arg11 (by decide)).trans (W6_arg11 m ρ c)
theorem W7_arg12 : W7 m ρ c (Proc.devRef .tc main_arg12) = m ((c : Thread nD τ).loc main_arg12) :=
  (kept3 (W6 m ρ c) main_arg12 (by decide)).trans (W6_arg12 m ρ c)

end Cert.KernelIdeal.KernelValue

end
-- ==== Proof.Spec.lean ====
/-
  The two-layer heterogeneous mean-aggregation network both programs compute, as one function of the eighteen
  argument arrays over the extended reals.

  One relation-layer: every destination node takes the mean of the source features that arrive along its edges
  (a row gather by the wrapped source index, a scatter-add by destination, divided by the in-degree clipped below at
  one, so a node with no edge gets zero), and the layer is  x_dst · W_self + mean · W_neigh + b.  The first layer of
  each of the two relations is followed by the leaky rectifier with slope f32(0.01); the second layer is not.  The
  result stacks the user table over the item table.
-/
import proofs.«144046_j51711406244226_1_alg».proof.Proof.Gen.ReferenceIdeal
import Idealize.ShloMosaic.PureOps.Ideal

noncomputable section

namespace Cert.Sage

open Idealize.ShloMosaic Cert.ReferenceIdeal Cert.ReferenceIdeal.Gen

/-- A node-feature table [200000, 128]. -/
abbrev Mat := FVec Ideal S200000x128 .f32
/-- A weight matrix [128, 128]. -/
abbrev Wt := FVec Ideal S128x128 .f32
/-- A bias vector [128]. -/
abbrev Bias := FVec Ideal S128 .f32
/-- A bias row [1, 128]. -/
abbrev Row := FVec Ideal S1x128 .f32
/-- One endpoint per edge, [500000] signed 32-bit. -/
abbrev Edges := IVec S500000 32
/-- The stacked result [2, 200000, 128]. -/
abbrev Out := FVec Ideal S2x200000x128 .f32

/-- A negative source index counts from the end of the table: i < 0 ↦ i + 200000. -/
def wrapIdx (src : Edges) : Edges :=
  select (cmpi .slt src (broadcastInDim S500000 ![] bcast_S_S500000 (constantI S_ 32 0#32)))
    (addi src (broadcastInDim S500000 ![] bcast_S_S500000 (constantI S_ 32 200000#32))) src

/-- The mean over a node's in-edges of the source rows: sum of gathered rows per destination, over max(in-degree, 1). -/
def nbrMean (xsrc : Mat) (src dst : Edges) : Mat :=
  Host.divf
    (Host.scatterAdd scatter_S200000x128_S500000x1_S500000x128_1_0_0_1
      (broadcastInDim S200000x128 ![] bcast_S_S200000x128 (constant (F := Ideal) S_ .f32 0x00000000#32))
      (broadcastInDim S500000x1 ![0] bcast_S500000_S500000x1_0 dst)
      (Host.gather gather_S200000x128_S500000x1_S500000x128_1_0_n_n_0_1_1128 xsrc
        (broadcastInDim S500000x1 ![0] bcast_S500000_S500000x1_0 (wrapIdx src))))
    (broadcastInDim S200000x128 ![0, 1] bcast_S200000x1_S200000x128_0_1
      (broadcastInDim S200000x1 ![0] bcast_S200000_S200000x1_0
        (maximumf
          (Host.scatterAdd scatter_S200000_S500000x1_S500000_n_0_0_1
            (broadcastInDim S200000 ![] bcast_S_S200000 (constant (F := Ideal) S_ .f32 0x00000000#32))
            (broadcastInDim S500000x1 ![0] bcast_S500000_S500000x1_0 dst)
            (broadcastInDim S500000 ![] bcast_S_S500000 (constant (F := Ideal) S_ .f32 0x3F800000#32)))
          (broadcastInDim S200000 ![] bcast_S_S200000 (constant (F := Ideal) S_ .f32 0x3F800000#32)))))

/-- x · W_self + mean · W_neigh + (the bias row spread over all rows). -/
def linearRow (x mean : Mat) (ws wn : Wt) (b2 : Row) : Mat :=
  addf (addf (Host.dotGeneral dot_S200000x128_S128x128_S200000x128_1_0_0_1_n_n none x ws)
      (Host.dotGeneral dot_S200000x128_S128x128_S200000x128_1_0_0_1_n_n none mean wn))
    (broadcastInDim S200000x128 ![0, 1] bcast_S1x128_S200000x128_0_1 b2)

/-- The same with the bias given as a vector. -/
def linear (x mean : Mat) (ws wn : Wt) (b : Bias) : Mat :=
  linearRow x mean ws wn (broadcastInDim S1x128 ![1] bcast_S128_S1x128_1 b)

/-- The leaky rectifier: h where h ≥ 0, f32(0.01) · h elsewhere. -/
def leaky (h : Mat) : Mat :=
  select (cmpf .oge h (broadcastInDim S200000x128 ![] bcast_S_S200000x128 (constant (F := Ideal) S_ .f32 0x00000000#32))) h
    (mulf (broadcastInDim S200000x128 ![] bcast_S_S200000x128 (constant (F := Ideal) S_ .f32 0x3C23D70A#32)) h)

/-- One relation-layer: destination features through W_self, neighbour mean through W_neigh, plus bias. -/
def sage (xsrc xdst : Mat) (src dst : Edges) (ws wn : Wt) (b : Bias) : Mat :=
  linear xdst (nbrMean xsrc src dst) ws wn b

/-- Two tables stacked: the first becomes member 0, the second member 1. -/
def stack (a b : Mat) : Out :=
  concatenate S2x200000x128 0
    [⟨S1x200000x128, broadcastInDim S1x200000x128 ![1, 2] bcast_S200000x128_S1x200000x128_1_2 a⟩,
     ⟨S1x200000x128, broadcastInDim S1x200000x128 ![1, 2] bcast_S200000x128_S1x200000x128_1_2 b⟩]
    concatenates_S1x200000x128_S1x200000x128_S2x200000x128_d0

/-- The whole network, arguments in the programs' order. -/
def out (xu xi : Mat) (w1s_uc w1n_uc : Wt) (b1_uc : Bias) (w1s_iu w1n_iu : Wt) (b1_iu : Bias)
    (w2s_uc w2n_uc : Wt) (b2_uc : Bias) (w2s_iu w2n_iu : Wt) (b2_iu : Bias)
    (src_uc dst_uc src_iu dst_iu : Edges) : Out :=
  stack
    (sage (leaky (sage xu xi src_uc dst_uc w1s_uc w1n_uc b1_uc)) (leaky (sage xi xu src_iu dst_iu w1s_iu w1n_iu b1_iu))
      src_iu dst_iu w2s_iu w2n_iu b2_iu)
    (sage (leaky (sage xi xu src_iu dst_iu w1s_iu w1n_iu b1_iu)) (leaky (sage xu xi src_uc dst_uc w1s_uc w1n_uc b1_uc))
      src_uc dst_uc w2s_uc w2n_uc b2_uc)

end Cert.Sage

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.KernelStages.lean ====
/-
  The host stretches of the four-region program, each read as the one function of its inputs it computes.

  Before every region the program computes, on the host, the neighbour mean that region consumes (wrap the source
  index, gather the source rows, scatter-add them by destination, count the in-degree the same way, divide by the count
  clipped below at one) and recasts the bias vector as a row; after the last region it stacks the two second-layer
  tables.  Each is read here off the stretch's fold at an arbitrary entry valuation.
-/
import proofs.«144046_j51711406244226_1_alg».proof.Proof.Gen.KernelIdeal.Launch
import proofs.«144046_j51711406244226_1_alg».proof.Proof.Spec
import proofs.«144046_j51711406244226_1_alg».proof.Proof.LibRowOfVector
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.Tactic Idealize.SL.Sem Idealize.ShloMosaic.StableHlo

variable (W : Valuation τ sig (Elt Ideal))

/-- Stretch 0 leaves in its mean buffer the neighbour mean of the source table along the relation's edges. -/
theorem mean0 : StableHlo.after hostOps0 W (Proc.devRef .tc main_v18)
    = Cert.Sage.nbrMean (W (Proc.devRef .tc main_arg0)) (W (Proc.devRef .tc main_arg14)) (W (Proc.devRef .tc main_arg15)) := by
  after_results_simp
  rfl

/-- Stretch 0 leaves in its bias buffer the bias vector spread as one row. -/
theorem bias0 : StableHlo.after hostOps0 W (Proc.devRef .tc main_v19)
    = broadcastInDim Cert.ReferenceIdeal.S1x128 ![1] Cert.ReferenceIdeal.Gen.bcast_S128_S1x128_1 (W (Proc.devRef .tc main_arg4) : Cert.Sage.Bias) := by
  after_results
  exact Cert.Lib.shapeCast_row_eq_broadcastInDim _ _ _

/-- Stretch 1 leaves in its mean buffer the neighbour mean of the source table along the relation's edges. -/
theorem mean1 : StableHlo.after hostOps1 W (Proc.devRef .tc main_v39)
    = Cert.Sage.nbrMean (W (Proc.devRef .tc main_arg1)) (W (Proc.devRef .tc main_arg16)) (W (Proc.devRef .tc main_arg17)) := by
  after_results_simp
  rfl

/-- Stretch 1 leaves in its bias buffer the bias vector spread as one row. -/
theorem bias1 : StableHlo.after hostOps1 W (Proc.devRef .tc main_v40)
    = broadcastInDim Cert.ReferenceIdeal.S1x128 ![1] Cert.ReferenceIdeal.Gen.bcast_S128_S1x128_1 (W (Proc.devRef .tc main_arg7) : Cert.Sage.Bias) := by
  after_results
  exact Cert.Lib.shapeCast_row_eq_broadcastInDim _ _ _

/-- Stretch 2 leaves in its mean buffer the neighbour mean of the source table along the relation's edges. -/
theorem mean2 : StableHlo.after hostOps2 W (Proc.devRef .tc main_v60)
    = Cert.Sage.nbrMean (W (Proc.devRef .tc main_v41)) (W (Proc.devRef .tc main_arg14)) (W (Proc.devRef .tc main_arg15)) := by
  after_results_simp
  rfl

/-- Stretch 2 leaves in its bias buffer the bias vector spread as one row. -/
theorem bias2 : StableHlo.after hostOps2 W (Proc.devRef .tc main_v61)
    = broadcastInDim Cert.ReferenceIdeal.S1x128 ![1] Cert.ReferenceIdeal.Gen.bcast_S128_S1x128_1 (W (Proc.devRef .tc main_arg10) : Cert.Sage.Bias) := by
  after_results
  exact Cert.Lib.shapeCast_row_eq_broadcastInDim _ _ _

/-- Stretch 3 leaves in its mean buffer the neighbour mean of the source table along the relation's edges. -/
theorem mean3 : StableHlo.after hostOps3 W (Proc.devRef .tc main_v81)
    = Cert.Sage.nbrMean (W (Proc.devRef .tc main_v20)) (W (Proc.devRef .tc main_arg16)) (W (Proc.devRef .tc main_arg17)) := by
  after_results_simp
  rfl

/-- Stretch 3 leaves in its bias buffer the bias vector spread as one row. -/
theorem bias3 : StableHlo.after hostOps3 W (Proc.devRef .tc main_v82)
    = broadcastInDim Cert.ReferenceIdeal.S1x128 ![1] Cert.ReferenceIdeal.Gen.bcast_S128_S1x128_1 (W (Proc.devRef .tc main_arg13) : Cert.Sage.Bias) := by
  after_results
  exact Cert.Lib.shapeCast_row_eq_broadcastInDim _ _ _

/-- The last stretch stacks the fourth region's table over the third's. -/
theorem stacked : StableHlo.after hostOps4 W (Proc.devRef .tc main_v86)
    = Cert.Sage.stack (W (Proc.devRef .tc main_v83)) (W (Proc.devRef .tc main_v62)) := by
  after_results
  rfl

end Cert.KernelIdeal.KernelValue

end
-- ==== Proof.KernelRun.lean ====
/-
  The kernel program's run with every buffer named: from any launch memory every weakly fair execution of the
  four-region program terminates, and each unscoped buffer of each core ends at the contents the last segment
  boundary assigns it — the fold of the host stretches and the four regions' write-backs over the launch memory.
  The frame claim keeps only the argument arrays of this; the value claim needs the result array as well.
-/
import proofs.«144046_j51711406244226_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer `b` of core
    `c` ends at the last boundary's contents `Gen.W9 m ρ c b`. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.KernelRun

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«144046_j51711406244226_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibKernelHostForms.lean ====
/-
  Three kernel-side operations and the host operations they are, as whole arrays over the extended reals.

  A kernel's matrix product of operands rounded to bf16, accumulated into zero, is the host's dot_general of the
  unrounded operands, for any dimension numbers: rounding is the identity on the extended reals and both products are
  the sum over the contracted coordinates. A [1, b] row broadcast over [a, b] by the kernel's vector broadcast is the
  host's broadcast_in_dim along dimensions [0, 1]. A scalar constant splat over an array by the kernel is the host's
  broadcast of the constant scalar.
-/
import proofs.«144046_j51711406244226_1_alg».proof.Proof.LibHostSpread
import Idealize.ShloMosaic.Lib.Pipeline.Value
import Idealize.ShloMosaic.Lib.ValueIdx
import Idealize.ShloMosaic.Lib.ValueLayout
import Idealize.ShloMosaic.PureOps.Ideal.Laws

noncomputable section

namespace Cert.Lib

open Idealize.ShloMosaic Idealize.ShloMosaic.ValueIdx

/-- A product into the zero accumulator of operands rounded to bf16 is the host's product of the operands: rounding is
    the identity on the extended reals, and both products are the sum over the contracted coordinate. -/
theorem rounded_product {sl sr so : Shape} (d : DotDims sl sr so) (prec : Option ContractPrecision)
    (a : FVec Ideal sl .f32) (b : FVec Ideal sr .f32) (h1 : FTy.bf16.bits < FTy.f32.bits) (h2 : FTy.bf16.bits < FTy.f32.bits) :
    matmul d prec (truncf .bf16 a h1) (truncf .bf16 b h2) (constant so .f32 0x00000000#32) = Host.dotGeneral d prec a b := by
  funext j
  exact (Ideal.matmul_constant_zero_apply d prec (truncf .bf16 a h1) (truncf .bf16 b h2) j).trans
    (Ideal.dotGeneral_apply d prec default a b j).symm

/-- One row spread over many rows, by the kernel's broadcast and by the host's, is the same array. -/
theorem row_spread {α : Type} {a b : ℕ} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ (![0, 1] : Fin 2 → Fin 2)) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [broadcastTo_1b_ab_apply, spread_1b_ab_apply]

/-- A scalar constant spread over an array, by the kernel's splat and by the host's, is the same array. -/
theorem zero_splat {t : Shape} (w : BitVec 32) (h : (⟨0, ![]⟩ : Shape).BroadcastsInDim t (![] : Fin 0 → Fin t.rank)) :
    (broadcast t (Scalar.ofBits (F := Ideal) .f32 w) : FVec Ideal t .f32) = broadcastInDim t ![] h (constant ⟨0, ![]⟩ .f32 w) := by
  funext j
  rw [splat_apply]
  rfl

end Cert.Lib

end
-- ==== Proof.RegionBlock.lean ====
/-
  One block of rows of a relation-layer, against the layer's whole array, over the extended reals.

  Each of the four kernels works on a block of 5000 rows at a time. From the block of destination features x, the same
  rows of the neighbour mean, the two whole weight matrices and the bias row it forms
      x · W_self + mean · W_neigh + b      (operands of the products rounded to bf16, accumulated into zero),
  and the first-layer kernels then apply the leaky rectifier  h ↦ h  if h ≥ 0, else h · f32(0.01).
  Over the extended reals rounding is the identity, rows off, …, off + 4999 of a product X · W depend on those rows of X
  only, the bias row is the same for every row, and the rectifier acts entry by entry. So the block a kernel computes
  from rows off … of the arrays is rows off … of the layer computed on the whole arrays. That is stated here with the
  blocks as VARIABLES: each block is its array read through some index map, about which only the coordinates are
  assumed (the row blocks' and the result's rows are shifted by off, nothing else moves).
-/
import proofs.«144046_j51711406244226_1_alg».proof.Proof.Gen.KernelIdeal.Frame
import proofs.«144046_j51711406244226_1_alg».proof.Proof.Spec
import proofs.«144046_j51711406244226_1_alg».proof.Proof.LibRowBlockProduct
import proofs.«144046_j51711406244226_1_alg».proof.Proof.LibKernelHostForms

noncomputable section

namespace Cert.KernelIdeal.RegionValue

open Idealize.ShloMosaic Idealize.ShloMosaic.ValueIdx Cert.KernelIdeal Cert.KernelIdeal.Gen

/-- The zero offsets of a whole-buffer access, as the constant function. -/
theorem zero_offsets : (![0, 0] : Fin 2 → Nat) = fun _ => 0 := funext fun a => by fin_cases a <;> rfl

/-! ## The two block functions -/

/-- x · W_self + mean · W_neigh + b on one block: the products of the operands rounded to bf16, into zero. -/
def linearBlock (x0 x1 : Vec Ideal S5000x128 .f32) (x2 x3 : Vec Ideal S128x128 .f32) (x4 : Vec Ideal S1x128 .f32) :
    FVec Ideal S5000x128 .f32 :=
  addf
    (addf
      (matmul dot_S5000x128_S128x128_S5000x128_1_0_0_1_n_n none (truncf .bf16 x0 bitsLt_bf16_f32)
        (truncf .bf16 x2 bitsLt_bf16_f32) (constant S5000x128 .f32 0x00000000#32))
      (matmul dot_S5000x128_S128x128_S5000x128_1_0_0_1_n_n none (truncf .bf16 x1 bitsLt_bf16_f32)
        (truncf .bf16 x3 bitsLt_bf16_f32) (constant S5000x128 .f32 0x00000000#32)))
    (broadcastTo S5000x128 x4 broadcasts_S1x128_S5000x128)

/-- The leaky rectifier on one block: h where h ≥ 0, h · f32(0.01) elsewhere. -/
def leakyBlock (o : FVec Ideal S5000x128 .f32) : FVec Ideal S5000x128 .f32 :=
  select (cmpf .oge o (broadcast S5000x128 (Scalar.ofBits (F := Ideal) .f32 0x00000000#32))) o
    (mulf o (broadcast S5000x128 (Scalar.ofBits (F := Ideal) .f32 0x3C23D70A#32)))

/-! ## What each kernel's one store holds: the block functions of its five loads -/

theorem pay0_eq (x0 x1 : Vec Ideal S5000x128 .f32) (x2 x3 : Vec Ideal S128x128 .f32) (x4 : Vec Ideal S1x128 .f32) :
    k0_pay1 x0 x1 x2 x3 x4 = leakyBlock (linearBlock x0 x1 x2 x3 x4) := by
  unfold k0_pay1 leakyBlock linearBlock
  simp only [shapeCast_self]

theorem pay1_eq (x0 x1 : Vec Ideal S5000x128 .f32) (x2 x3 : Vec Ideal S128x128 .f32) (x4 : Vec Ideal S1x128 .f32) :
    k1_pay1 x0 x1 x2 x3 x4 = leakyBlock (linearBlock x0 x1 x2 x3 x4) := by
  unfold k1_pay1 leakyBlock linearBlock
  simp only [shapeCast_self]

theorem pay2_eq (x0 x1 : Vec Ideal S5000x128 .f32) (x2 x3 : Vec Ideal S128x128 .f32) (x4 : Vec Ideal S1x128 .f32) :
    k2_pay1 x0 x1 x2 x3 x4 = linearBlock x0 x1 x2 x3 x4 := by
  unfold k2_pay1 linearBlock
  simp only [shapeCast_self]

theorem pay3_eq (x0 x1 : Vec Ideal S5000x128 .f32) (x2 x3 : Vec Ideal S128x128 .f32) (x4 : Vec Ideal S1x128 .f32) :
    k3_pay1 x0 x1 x2 x3 x4 = linearBlock x0 x1 x2 x3 x4 := by
  unfold k3_pay1 linearBlock
  simp only [shapeCast_self]

/-- What region 0's body leaves in the output's buffer: whole-buffer loads, one whole-buffer store. -/
theorem out0_eq (x0 x1 : Vec Ideal S5000x128 .f32) (x2 x3 : Vec Ideal S128x128 .f32) (x4 : Vec Ideal S1x128 .f32) :
    out0_5 x0 x1 x2 x3 x4 = leakyBlock (linearBlock x0 x1 x2 x3 x4) := by
  unfold out0_5
  rw [View.canon_unit_zero zero_offsets]
  simp only [View.ld_unit_zero (S := S5000x128) zero_offsets, View.ld_unit_zero (S := S128x128) zero_offsets,
    View.ld_unit_zero (S := S1x128) zero_offsets]
  exact pay0_eq x0 x1 x2 x3 x4

theorem out1_eq (x0 x1 : Vec Ideal S5000x128 .f32) (x2 x3 : Vec Ideal S128x128 .f32) (x4 : Vec Ideal S1x128 .f32) :
    out1_5 x0 x1 x2 x3 x4 = leakyBlock (linearBlock x0 x1 x2 x3 x4) := by
  unfold out1_5
  rw [View.canon_unit_zero zero_offsets]
  simp only [View.ld_unit_zero (S := S5000x128) zero_offsets, View.ld_unit_zero (S := S128x128) zero_offsets,
    View.ld_unit_zero (S := S1x128) zero_offsets]
  exact pay1_eq x0 x1 x2 x3 x4

theorem out2_eq (x0 x1 : Vec Ideal S5000x128 .f32) (x2 x3 : Vec Ideal S128x128 .f32) (x4 : Vec Ideal S1x128 .f32) :
    out2_5 x0 x1 x2 x3 x4 = linearBlock x0 x1 x2 x3 x4 := by
  unfold out2_5
  rw [View.canon_unit_zero zero_offsets]
  simp only [View.ld_unit_zero (S := S5000x128) zero_offsets, View.ld_unit_zero (S := S128x128) zero_offsets,
    View.ld_unit_zero (S := S1x128) zero_offsets]
  exact pay2_eq x0 x1 x2 x3 x4

theorem out3_eq (x0 x1 : Vec Ideal S5000x128 .f32) (x2 x3 : Vec Ideal S128x128 .f32) (x4 : Vec Ideal S1x128 .f32) :
    out3_5 x0 x1 x2 x3 x4 = linearBlock x0 x1 x2 x3 x4 := by
  unfold out3_5
  rw [View.canon_unit_zero zero_offsets]
  simp only [View.ld_unit_zero (S := S5000x128) zero_offsets, View.ld_unit_zero (S := S128x128) zero_offsets,
    View.ld_unit_zero (S := S1x128) zero_offsets]
  exact pay3_eq x0 x1 x2 x3 x4

/-! ## A block of rows of a product of rounded operands -/

/-- The product of an m-row block of `X` (rows `off …`) with `W`, both rounded to bf16, accumulated into zero, read at a
    block index, is the host's product of the unrounded `X` and `W` read where the result block puts that index. -/
theorem rounded_row_block_product {m M k n : Nat} (prec : Option ContractPrecision)
    (x : FVec Ideal ⟨2, ![m, k]⟩ .f32) (w : FVec Ideal ⟨2, ![k, n]⟩ .f32)
    (X : FVec Ideal ⟨2, ![M, k]⟩ .f32) (W : FVec Ideal ⟨2, ![k, n]⟩ .f32)
    (h1 h2 : FTy.bf16.bits < FTy.f32.bits)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex : ∀ y, (ex y 0).val = off + (y 0).val ∧ (ex y 1).val = (y 1).val)
    (hew : ∀ y, (ew y 0).val = (y 0).val ∧ (ew y 1).val = (y 1).val)
    (heo : ∀ y, (eo y 0).val = off + (y 0).val ∧ (eo y 1).val = (y 1).val)
    (j : (⟨2, ![m, n]⟩ : Shape).Idx) :
    matmul (DotDims.plain m k n) prec (truncf .bf16 x h1) (truncf .bf16 w h2) (constant ⟨2, ![m, n]⟩ .f32 0x00000000#32) j
      = Host.dotGeneral (DotDims.plain M k n) prec X W (eo j) :=
  (Cert.Lib.plain_product_row_block prec (truncf .bf16 x h1) (truncf .bf16 w h2) (truncf .bf16 X h1) (truncf .bf16 W h2)
      ex ew eo off hx hw (fun y => (hex y).1) (fun y => (hex y).2) (fun y => (hew y).1) (fun y => (hew y).2)
      (fun y => (heo y).1) (fun y => (heo y).2) j).trans
    ((Ideal.dotGeneral_apply (DotDims.plain M k n) prec .single (truncf .bf16 X h1) (truncf .bf16 W h2) (eo j)).trans
      (Ideal.dotGeneral_apply (DotDims.plain M k n) prec .single X W (eo j)).symm)

/-! ## The blocks against the whole arrays -/

/-- The linear block of the rows `off …` of x and of the mean, the two weight matrices and the bias row, read at a block
    index, is the whole layer x · W_self + mean · W_neigh + b read where the result block puts that index. -/
theorem linearBlock_apply (X0 X1 : Cert.Sage.Mat) (W2 W3 : Cert.Sage.Wt) (B : Cert.Sage.Row)
    (x0 x1 : Vec Ideal S5000x128 .f32) (x2 x3 : Vec Ideal S128x128 .f32) (x4 : Vec Ideal S1x128 .f32)
    (e0 e1 eo : S5000x128.Idx → S200000x128.Idx) (e2 e3 : S128x128.Idx → S128x128.Idx) (e4 : S1x128.Idx → S1x128.Idx)
    (off : Nat)
    (h0 : ∀ y, x0 y = X0 (e0 y)) (h1 : ∀ y, x1 y = X1 (e1 y)) (h2 : ∀ y, x2 y = W2 (e2 y)) (h3 : ∀ y, x3 y = W3 (e3 y))
    (h4 : ∀ y, x4 y = B (e4 y))
    (c0 : ∀ y, (e0 y 0).val = off + (y 0).val ∧ (e0 y 1).val = (y 1).val)
    (c1 : ∀ y, (e1 y 0).val = off + (y 0).val ∧ (e1 y 1).val = (y 1).val)
    (c2 : ∀ y, (e2 y 0).val = (y 0).val ∧ (e2 y 1).val = (y 1).val)
    (c3 : ∀ y, (e3 y 0).val = (y 0).val ∧ (e3 y 1).val = (y 1).val)
    (c4 : ∀ y, (e4 y 1).val = (y 1).val)
    (co : ∀ y, (eo y 0).val = off + (y 0).val ∧ (eo y 1).val = (y 1).val)
    (y : S5000x128.Idx) :
    linearBlock x0 x1 x2 x3 x4 y = Cert.Sage.linearRow X0 X1 W2 W3 B (eo y) := by
  unfold linearBlock Cert.Sage.linearRow
  simp only [addf_apply]
  refine congrArg₂ (· + ·) (congrArg₂ (· + ·) ?_ ?_) ?_
  · exact rounded_row_block_product (m := 5000) (M := 200000) (k := 128) (n := 128) none x0 x2 X0 W2 _ _ e0 e2 eo off
      h0 h2 c0 c2 co y
  · exact rounded_row_block_product (m := 5000) (M := 200000) (k := 128) (n := 128) none x1 x3 X1 W3 _ _ e1 e3 eo off
      h1 h3 c1 c3 co y
  · -- the bias: every row of the block, and every row of the array, reads the one row at its column
    obtain ⟨p, q, rfl⟩ : ∃ (p : Fin 5000) (q : Fin 128), y = ix2 p q := ⟨y 0, y 1, eq_ix2 y⟩
    obtain ⟨p', q', hpq⟩ : ∃ (p' : Fin 200000) (q' : Fin 128), eo (ix2 p q) = ix2 p' q' := ⟨_, _, eq_ix2 _⟩
    have hq : q' = q := Fin.ext (by have := (co (ix2 p q)).2; rw [hpq] at this; exact this)
    have h4' : e4 (ix2 (0 : Fin 1) q) = ix2 (0 : Fin 1) q := by
      funext a; apply Fin.ext
      match a with
      | ⟨0, _⟩ =>
        have hlt : (e4 (ix2 (0 : Fin 1) q) 0).val < 1 := (e4 (ix2 (0 : Fin 1) q) 0).isLt
        show (e4 (ix2 (0 : Fin 1) q) 0).val = 0
        omega
      | ⟨1, _⟩ => exact c4 _
    rw [hpq, hq]
    exact ((broadcastTo_1b_ab_apply x4 _ p q).trans ((h4 _).trans (congrArg B h4'))).trans
      (Cert.Lib.spread_1b_ab_apply B _ p' q).symm

/-- The rectifier acts entry by entry: where a block's entry is an array's entry, so are their rectified entries. -/
theorem leakyBlock_apply (o : FVec Ideal S5000x128 .f32) (H : Cert.Sage.Mat) (y : S5000x128.Idx) (i : S200000x128.Idx)
    (h : o y = H i) : leakyBlock o y = Cert.Sage.leaky H i := by
  unfold leakyBlock Cert.Sage.leaky
  simp only [select_apply, cmpf_apply, mulf_apply, broadcast_apply, h]
  -- a scalar constant spread over the array reads the constant everywhere
  have spread : ∀ w : BitVec 32,
      broadcastInDim Cert.ReferenceIdeal.S200000x128 ![] Cert.ReferenceIdeal.Gen.bcast_S_S200000x128
        (constant (F := Ideal) Cert.ReferenceIdeal.S_ .f32 w) i = FloatOps.ofBits (F := Ideal) .f32 w :=
    fun w => Cert.Lib.splat_apply _ _ i
  rw [spread, spread, mul_comm]

end Cert.KernelIdeal.RegionValue

end
-- ==== Proof.Region0.lean ====
/-
  Region 0's output array as one function of the arrays the region finds.

  Region 0 computes a relation-layer followed by the leaky rectifier: x · W_self + mean · W_neigh + b, then h ↦ h if h ≥ 0, else f32(0.01) · h.
  The kernel runs at forty grid points; at point t it is handed rows 5000 t, …, 5000 t + 4999 of x and of the mean, the whole
  of the two weight matrices and of the bias row, and writes the block it computes to the same rows of the output array.
  A block of rows of the layer depends on those rows of x and of the mean only, so what point t writes is rows
  5000 t … of the layer computed on the whole arrays; the forty blocks tile the 200000 rows (row r is in block r / 5000), so
  after the last point the output array is that layer.
-/
import proofs.«144046_j51711406244226_1_alg».proof.Proof.RegionBlock
import Idealize.ShloMosaic.Lib.Pipeline.Value

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b)) (c : Dev nD)

/-- The layer on the arrays region 0 finds: x · W_self + mean · W_neigh + b, through the leaky rectifier. -/
abbrev layer0 : Cert.Sage.Mat :=
  Cert.Sage.leaky (Cert.Sage.linearRow (V c (Pipeline.arrRef spec0 0)) (V c (Pipeline.arrRef spec0 1)) (V c (Pipeline.arrRef spec0 2))
    (V c (Pipeline.arrRef spec0 3)) (V c (Pipeline.arrRef spec0 4)))

/-- The printed index maps, decided once over the grid: at point `t` the row blocks (x, the mean, the result) are block
    `t` of their arrays, and the weights and the bias row are the whole of theirs. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer on the arrays the region finds. -/
theorem flushed0_eq (t : Fin cfg0.N) :
    (dat0 V c).flushed 5 t = ((cfg0.win 5).blk t).view.read (Elt Ideal) (layer0 V c) := by
  show (cfg0.win 5).cut (grid0.coords t) ((dat0 V c).after 5 t) = _
  rw [after0_5]
  obtain ⟨a00, a01, a10, a11, a20, a21, a30, a31, a40, a41, a50, a51⟩ := index_facts0 t
  -- where each window's block at `t` sits in its array: block index × block size + the coordinate inside the block
  have c0 : ∀ y : S5000x128.Idx,
      ((((cfg0.win 0).blk t).view.emb : S5000x128.Idx → S200000x128.Idx) y 0).val = 5000 * t.val + (y 0).val
      ∧ ((((cfg0.win 0).blk t).view.emb : S5000x128.Idx → S200000x128.Idx) y 1).val = (y 1).val := fun y =>
    ⟨by show win0_0.index t (0 : Fin 2) * 5000 + 1 * (y 0).val = _; omega,
     by show win0_0.index t (1 : Fin 2) * 128 + 1 * (y 1).val = _; omega⟩
  have c1 : ∀ y : S5000x128.Idx,
      ((((cfg0.win 1).blk t).view.emb : S5000x128.Idx → S200000x128.Idx) y 0).val = 5000 * t.val + (y 0).val
      ∧ ((((cfg0.win 1).blk t).view.emb : S5000x128.Idx → S200000x128.Idx) y 1).val = (y 1).val := fun y =>
    ⟨by show win0_1.index t (0 : Fin 2) * 5000 + 1 * (y 0).val = _; omega,
     by show win0_1.index t (1 : Fin 2) * 128 + 1 * (y 1).val = _; omega⟩
  have c2 : ∀ y : S128x128.Idx,
      ((((cfg0.win 2).blk t).view.emb : S128x128.Idx → S128x128.Idx) y 0).val = (y 0).val
      ∧ ((((cfg0.win 2).blk t).view.emb : S128x128.Idx → S128x128.Idx) y 1).val = (y 1).val := fun y =>
    ⟨by show win0_2.index t (0 : Fin 2) * 128 + 1 * (y 0).val = _; omega,
     by show win0_2.index t (1 : Fin 2) * 128 + 1 * (y 1).val = _; omega⟩
  have c3 : ∀ y : S128x128.Idx,
      ((((cfg0.win 3).blk t).view.emb : S128x128.Idx → S128x128.Idx) y 0).val = (y 0).val
      ∧ ((((cfg0.win 3).blk t).view.emb : S128x128.Idx → S128x128.Idx) y 1).val = (y 1).val := fun y =>
    ⟨by show win0_3.index t (0 : Fin 2) * 128 + 1 * (y 0).val = _; omega,
     by show win0_3.index t (1 : Fin 2) * 128 + 1 * (y 1).val = _; omega⟩
  have c4 : ∀ y : S1x128.Idx,
      ((((cfg0.win 4).blk t).view.emb : S1x128.Idx → S1x128.Idx) y 1).val = (y 1).val := fun y => by
    show win0_4.index t (1 : Fin 2) * 128 + 1 * (y 1).val = _; omega
  have co : ∀ y : S5000x128.Idx,
      ((((cfg0.win 5).blk t).view.emb : S5000x128.Idx → S200000x128.Idx) y 0).val = 5000 * t.val + (y 0).val
      ∧ ((((cfg0.win 5).blk t).view.emb : S5000x128.Idx → S200000x128.Idx) y 1).val = (y 1).val := fun y =>
    ⟨by show win0_5.index t (0 : Fin 2) * 5000 + 1 * (y 0).val = _; omega,
     by show win0_5.index t (1 : Fin 2) * 128 + 1 * (y 1).val = _; omega⟩
  funext j
  show out0_5 (iblk0 V c 0 t) (iblk0 V c 1 t) (iblk0 V c 2 t) (iblk0 V c 3 t) (iblk0 V c 4 t) j
    = layer0 V c ((((cfg0.win 5).blk t).view.emb : S5000x128.Idx → S200000x128.Idx) j)
  refine (congrFun (out0_eq (iblk0 V c 0 t) (iblk0 V c 1 t) (iblk0 V c 2 t) (iblk0 V c 3 t) (iblk0 V c 4 t)) j).trans ?_
  refine leakyBlock_apply (linearBlock (iblk0 V c 0 t) (iblk0 V c 1 t) (iblk0 V c 2 t) (iblk0 V c 3 t) (iblk0 V c 4 t))
    (Cert.Sage.linearRow (V c (Pipeline.arrRef spec0 0)) (V c (Pipeline.arrRef spec0 1)) (V c (Pipeline.arrRef spec0 2))
    (V c (Pipeline.arrRef spec0 3)) (V c (Pipeline.arrRef spec0 4))) j
    ((((cfg0.win 5).blk t).view.emb : S5000x128.Idx → S200000x128.Idx) j) ?_
  exact linearBlock_apply (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t)
    ((cfg0.win 0).blk t).view.emb ((cfg0.win 1).blk t).view.emb ((cfg0.win 5).blk t).view.emb
    ((cfg0.win 2).blk t).view.emb ((cfg0.win 3).blk t).view.emb ((cfg0.win 4).blk t).view.emb (5000 * t.val)
    (fun _ => rfl) (fun _ => rfl) (fun _ => rfl) (fun _ => rfl) (fun _ => rfl) c0 c1 c2 c3 c4 co j

/-- An index of the array is in point `t`'s output block iff each coordinate is in the block's range on its axis. -/
theorem mem_block0 (t : Fin cfg0.N) (i : S200000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v20).slice (win0_5.rect t)).set ↔ _
  rw [View.set_slice_whole, Rect.mem_set_unit]
  exact Iff.rfl

/-- The forty output blocks of 5000 rows tile the 200000 rows: row r is in the block of point r / 5000. -/
theorem cover0 (i : S200000x128.Idx) :
    ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 40 := N_0
  obtain ⟨t, ht⟩ : ∃ t : Fin cfg0.N, t.val = (i 0).val / 5000 := ⟨⟨(i 0).val / 5000, by rw [hN]; omega⟩, rfl⟩
  obtain ⟨-, -, -, -, -, -, -, -, -, -, a50, a51⟩ := index_facts0 t
  refine ⟨t, flush0_5 t, ?_⟩
  rw [mem_block0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After region 0, its output array is the layer on the arrays the region found. -/
theorem region0_array : (dat0 V c).arrAt 5 cfg0.N
    = Cert.Sage.leaky (Cert.Sage.linearRow (V c (Pipeline.arrRef spec0 0)) (V c (Pipeline.arrRef spec0 1)) (V c (Pipeline.arrRef spec0 2))
        (V c (Pipeline.arrRef spec0 3)) (V c (Pipeline.arrRef spec0 4))) :=
  (dat0 V c).arrAt_eq_of_cover 5 (layer0 V c) (fun t _ => flushed0_eq V c t) cover0

end Cert.KernelIdeal.RegionValue

end
-- ==== Proof.Region1.lean ====
/-
  Region 1's output array as one function of the arrays the region finds.

  Region 1 computes a relation-layer followed by the leaky rectifier: x · W_self + mean · W_neigh + b, then h ↦ h if h ≥ 0, else f32(0.01) · h.
  The kernel runs at forty grid points; at point t it is handed rows 5000 t, …, 5000 t + 4999 of x and of the mean, the whole
  of the two weight matrices and of the bias row, and writes the block it computes to the same rows of the output array.
  A block of rows of the layer depends on those rows of x and of the mean only, so what point t writes is rows
  5000 t … of the layer computed on the whole arrays; the forty blocks tile the 200000 rows (row r is in block r / 5000), so
  after the last point the output array is that layer.
-/
import proofs.«144046_j51711406244226_1_alg».proof.Proof.RegionBlock
import Idealize.ShloMosaic.Lib.Pipeline.Value

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b)) (c : Dev nD)

/-- The layer on the arrays region 1 finds: x · W_self + mean · W_neigh + b, through the leaky rectifier. -/
abbrev layer1 : Cert.Sage.Mat :=
  Cert.Sage.leaky (Cert.Sage.linearRow (V c (Pipeline.arrRef spec1 0)) (V c (Pipeline.arrRef spec1 1)) (V c (Pipeline.arrRef spec1 2))
    (V c (Pipeline.arrRef spec1 3)) (V c (Pipeline.arrRef spec1 4)))

/-- The printed index maps, decided once over the grid: at point `t` the row blocks (x, the mean, the result) are block
    `t` of their arrays, and the weights and the bias row are the whole of theirs. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer on the arrays the region finds. -/
theorem flushed1_eq (t : Fin cfg1.N) :
    (dat1 V c).flushed 5 t = ((cfg1.win 5).blk t).view.read (Elt Ideal) (layer1 V c) := by
  show (cfg1.win 5).cut (grid1.coords t) ((dat1 V c).after 5 t) = _
  rw [after1_5]
  obtain ⟨a00, a01, a10, a11, a20, a21, a30, a31, a40, a41, a50, a51⟩ := index_facts1 t
  -- where each window's block at `t` sits in its array: block index × block size + the coordinate inside the block
  have c0 : ∀ y : S5000x128.Idx,
      ((((cfg1.win 0).blk t).view.emb : S5000x128.Idx → S200000x128.Idx) y 0).val = 5000 * t.val + (y 0).val
      ∧ ((((cfg1.win 0).blk t).view.emb : S5000x128.Idx → S200000x128.Idx) y 1).val = (y 1).val := fun y =>
    ⟨by show win1_0.index t (0 : Fin 2) * 5000 + 1 * (y 0).val = _; omega,
     by show win1_0.index t (1 : Fin 2) * 128 + 1 * (y 1).val = _; omega⟩
  have c1 : ∀ y : S5000x128.Idx,
      ((((cfg1.win 1).blk t).view.emb : S5000x128.Idx → S200000x128.Idx) y 0).val = 5000 * t.val + (y 0).val
      ∧ ((((cfg1.win 1).blk t).view.emb : S5000x128.Idx → S200000x128.Idx) y 1).val = (y 1).val := fun y =>
    ⟨by show win1_1.index t (0 : Fin 2) * 5000 + 1 * (y 0).val = _; omega,
     by show win1_1.index t (1 : Fin 2) * 128 + 1 * (y 1).val = _; omega⟩
  have c2 : ∀ y : S128x128.Idx,
      ((((cfg1.win 2).blk t).view.emb : S128x128.Idx → S128x128.Idx) y 0).val = (y 0).val
      ∧ ((((cfg1.win 2).blk t).view.emb : S128x128.Idx → S128x128.Idx) y 1).val = (y 1).val := fun y =>
    ⟨by show win1_2.index t (0 : Fin 2) * 128 + 1 * (y 0).val = _; omega,
     by show win1_2.index t (1 : Fin 2) * 128 + 1 * (y 1).val = _; omega⟩
  have c3 : ∀ y : S128x128.Idx,
      ((((cfg1.win 3).blk t).view.emb : S128x128.Idx → S128x128.Idx) y 0).val = (y 0).val
      ∧ ((((cfg1.win 3).blk t).view.emb : S128x128.Idx → S128x128.Idx) y 1).val = (y 1).val := fun y =>
    ⟨by show win1_3.index t (0 : Fin 2) * 128 + 1 * (y 0).val = _; omega,
     by show win1_3.index t (1 : Fin 2) * 128 + 1 * (y 1).val = _; omega⟩
  have c4 : ∀ y : S1x128.Idx,
      ((((cfg1.win 4).blk t).view.emb : S1x128.Idx → S1x128.Idx) y 1).val = (y 1).val := fun y => by
    show win1_4.index t (1 : Fin 2) * 128 + 1 * (y 1).val = _; omega
  have co : ∀ y : S5000x128.Idx,
      ((((cfg1.win 5).blk t).view.emb : S5000x128.Idx → S200000x128.Idx) y 0).val = 5000 * t.val + (y 0).val
      ∧ ((((cfg1.win 5).blk t).view.emb : S5000x128.Idx → S200000x128.Idx) y 1).val = (y 1).val := fun y =>
    ⟨by show win1_5.index t (0 : Fin 2) * 5000 + 1 * (y 0).val = _; omega,
     by show win1_5.index t (1 : Fin 2) * 128 + 1 * (y 1).val = _; omega⟩
  funext j
  show out1_5 (iblk1 V c 0 t) (iblk1 V c 1 t) (iblk1 V c 2 t) (iblk1 V c 3 t) (iblk1 V c 4 t) j
    = layer1 V c ((((cfg1.win 5).blk t).view.emb : S5000x128.Idx → S200000x128.Idx) j)
  refine (congrFun (out1_eq (iblk1 V c 0 t) (iblk1 V c 1 t) (iblk1 V c 2 t) (iblk1 V c 3 t) (iblk1 V c 4 t)) j).trans ?_
  refine leakyBlock_apply (linearBlock (iblk1 V c 0 t) (iblk1 V c 1 t) (iblk1 V c 2 t) (iblk1 V c 3 t) (iblk1 V c 4 t))
    (Cert.Sage.linearRow (V c (Pipeline.arrRef spec1 0)) (V c (Pipeline.arrRef spec1 1)) (V c (Pipeline.arrRef spec1 2))
    (V c (Pipeline.arrRef spec1 3)) (V c (Pipeline.arrRef spec1 4))) j
    ((((cfg1.win 5).blk t).view.emb : S5000x128.Idx → S200000x128.Idx) j) ?_
  exact linearBlock_apply (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t)
    ((cfg1.win 0).blk t).view.emb ((cfg1.win 1).blk t).view.emb ((cfg1.win 5).blk t).view.emb
    ((cfg1.win 2).blk t).view.emb ((cfg1.win 3).blk t).view.emb ((cfg1.win 4).blk t).view.emb (5000 * t.val)
    (fun _ => rfl) (fun _ => rfl) (fun _ => rfl) (fun _ => rfl) (fun _ => rfl) c0 c1 c2 c3 c4 co j

/-- An index of the array is in point `t`'s output block iff each coordinate is in the block's range on its axis. -/
theorem mem_block1 (t : Fin cfg1.N) (i : S200000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- The forty output blocks of 5000 rows tile the 200000 rows: row r is in the block of point r / 5000. -/
theorem cover1 (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  have hN : cfg1.N = 40 := N_1
  obtain ⟨t, ht⟩ : ∃ t : Fin cfg1.N, t.val = (i 0).val / 5000 := ⟨⟨(i 0).val / 5000, by rw [hN]; omega⟩, rfl⟩
  obtain ⟨-, -, -, -, -, -, -, -, -, -, a50, a51⟩ := index_facts1 t
  refine ⟨t, flush1_5 t, ?_⟩
  rw [mem_block1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After region 1, its output array is the layer on the arrays the region found. -/
theorem region1_array : (dat1 V c).arrAt 5 cfg1.N
    = Cert.Sage.leaky (Cert.Sage.linearRow (V c (Pipeline.arrRef spec1 0)) (V c (Pipeline.arrRef spec1 1)) (V c (Pipeline.arrRef spec1 2))
        (V c (Pipeline.arrRef spec1 3)) (V c (Pipeline.arrRef spec1 4))) :=
  (dat1 V c).arrAt_eq_of_cover 5 (layer1 V c) (fun t _ => flushed1_eq V c t) cover1

end Cert.KernelIdeal.RegionValue

end
-- ==== Proof.Region2.lean ====
/-
  Region 2's output array as one function of the arrays the region finds.

  Region 2 computes a relation-layer with no rectifier: x · W_self + mean · W_neigh + b.
  The kernel runs at forty grid points; at point t it is handed rows 5000 t, …, 5000 t + 4999 of x and of the mean, the whole
  of the two weight matrices and of the bias row, and writes the block it computes to the same rows of the output array.
  A block of rows of the layer depends on those rows of x and of the mean only, so what point t writes is rows
  5000 t … of the layer computed on the whole arrays; the forty blocks tile the 200000 rows (row r is in block r / 5000), so
  after the last point the output array is that layer.
-/
import proofs.«144046_j51711406244226_1_alg».proof.Proof.RegionBlock
import Idealize.ShloMosaic.Lib.Pipeline.Value

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b)) (c : Dev nD)

/-- The layer on the arrays region 2 finds: x · W_self + mean · W_neigh + b. -/
abbrev layer2 : Cert.Sage.Mat :=
  Cert.Sage.linearRow (V c (Pipeline.arrRef spec2 0)) (V c (Pipeline.arrRef spec2 1)) (V c (Pipeline.arrRef spec2 2))
    (V c (Pipeline.arrRef spec2 3)) (V c (Pipeline.arrRef spec2 4))

/-- The printed index maps, decided once over the grid: at point `t` the row blocks (x, the mean, the result) are block
    `t` of their arrays, and the weights and the bias row are the whole of theirs. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer on the arrays the region finds. -/
theorem flushed2_eq (t : Fin cfg2.N) :
    (dat2 V c).flushed 5 t = ((cfg2.win 5).blk t).view.read (Elt Ideal) (layer2 V c) := by
  show (cfg2.win 5).cut (grid2.coords t) ((dat2 V c).after 5 t) = _
  rw [after2_5]
  obtain ⟨a00, a01, a10, a11, a20, a21, a30, a31, a40, a41, a50, a51⟩ := index_facts2 t
  -- where each window's block at `t` sits in its array: block index × block size + the coordinate inside the block
  have c0 : ∀ y : S5000x128.Idx,
      ((((cfg2.win 0).blk t).view.emb : S5000x128.Idx → S200000x128.Idx) y 0).val = 5000 * t.val + (y 0).val
      ∧ ((((cfg2.win 0).blk t).view.emb : S5000x128.Idx → S200000x128.Idx) y 1).val = (y 1).val := fun y =>
    ⟨by show win2_0.index t (0 : Fin 2) * 5000 + 1 * (y 0).val = _; omega,
     by show win2_0.index t (1 : Fin 2) * 128 + 1 * (y 1).val = _; omega⟩
  have c1 : ∀ y : S5000x128.Idx,
      ((((cfg2.win 1).blk t).view.emb : S5000x128.Idx → S200000x128.Idx) y 0).val = 5000 * t.val + (y 0).val
      ∧ ((((cfg2.win 1).blk t).view.emb : S5000x128.Idx → S200000x128.Idx) y 1).val = (y 1).val := fun y =>
    ⟨by show win2_1.index t (0 : Fin 2) * 5000 + 1 * (y 0).val = _; omega,
     by show win2_1.index t (1 : Fin 2) * 128 + 1 * (y 1).val = _; omega⟩
  have c2 : ∀ y : S128x128.Idx,
      ((((cfg2.win 2).blk t).view.emb : S128x128.Idx → S128x128.Idx) y 0).val = (y 0).val
      ∧ ((((cfg2.win 2).blk t).view.emb : S128x128.Idx → S128x128.Idx) y 1).val = (y 1).val := fun y =>
    ⟨by show win2_2.index t (0 : Fin 2) * 128 + 1 * (y 0).val = _; omega,
     by show win2_2.index t (1 : Fin 2) * 128 + 1 * (y 1).val = _; omega⟩
  have c3 : ∀ y : S128x128.Idx,
      ((((cfg2.win 3).blk t).view.emb : S128x128.Idx → S128x128.Idx) y 0).val = (y 0).val
      ∧ ((((cfg2.win 3).blk t).view.emb : S128x128.Idx → S128x128.Idx) y 1).val = (y 1).val := fun y =>
    ⟨by show win2_3.index t (0 : Fin 2) * 128 + 1 * (y 0).val = _; omega,
     by show win2_3.index t (1 : Fin 2) * 128 + 1 * (y 1).val = _; omega⟩
  have c4 : ∀ y : S1x128.Idx,
      ((((cfg2.win 4).blk t).view.emb : S1x128.Idx → S1x128.Idx) y 1).val = (y 1).val := fun y => by
    show win2_4.index t (1 : Fin 2) * 128 + 1 * (y 1).val = _; omega
  have co : ∀ y : S5000x128.Idx,
      ((((cfg2.win 5).blk t).view.emb : S5000x128.Idx → S200000x128.Idx) y 0).val = 5000 * t.val + (y 0).val
      ∧ ((((cfg2.win 5).blk t).view.emb : S5000x128.Idx → S200000x128.Idx) y 1).val = (y 1).val := fun y =>
    ⟨by show win2_5.index t (0 : Fin 2) * 5000 + 1 * (y 0).val = _; omega,
     by show win2_5.index t (1 : Fin 2) * 128 + 1 * (y 1).val = _; omega⟩
  funext j
  show out2_5 (iblk2 V c 0 t) (iblk2 V c 1 t) (iblk2 V c 2 t) (iblk2 V c 3 t) (iblk2 V c 4 t) j
    = layer2 V c ((((cfg2.win 5).blk t).view.emb : S5000x128.Idx → S200000x128.Idx) j)
  refine (congrFun (out2_eq (iblk2 V c 0 t) (iblk2 V c 1 t) (iblk2 V c 2 t) (iblk2 V c 3 t) (iblk2 V c 4 t)) j).trans ?_
  exact linearBlock_apply (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t)
    ((cfg2.win 0).blk t).view.emb ((cfg2.win 1).blk t).view.emb ((cfg2.win 5).blk t).view.emb
    ((cfg2.win 2).blk t).view.emb ((cfg2.win 3).blk t).view.emb ((cfg2.win 4).blk t).view.emb (5000 * t.val)
    (fun _ => rfl) (fun _ => rfl) (fun _ => rfl) (fun _ => rfl) (fun _ => rfl) c0 c1 c2 c3 c4 co j

/-- An index of the array is in point `t`'s output block iff each coordinate is in the block's range on its axis. -/
theorem mem_block2 (t : Fin cfg2.N) (i : S200000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v62).slice (win2_5.rect t)).set ↔ _
  rw [View.set_slice_whole, Rect.mem_set_unit]
  exact Iff.rfl

/-- The forty output blocks of 5000 rows tile the 200000 rows: row r is in the block of point r / 5000. -/
theorem cover2 (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  have hN : cfg2.N = 40 := N_2
  obtain ⟨t, ht⟩ : ∃ t : Fin cfg2.N, t.val = (i 0).val / 5000 := ⟨⟨(i 0).val / 5000, by rw [hN]; omega⟩, rfl⟩
  obtain ⟨-, -, -, -, -, -, -, -, -, -, a50, a51⟩ := index_facts2 t
  refine ⟨t, flush2_5 t, ?_⟩
  rw [mem_block2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- After region 2, its output array is the layer on the arrays the region found. -/
theorem region2_array : (dat2 V c).arrAt 5 cfg2.N
    = Cert.Sage.linearRow (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 (layer2 V c) (fun t _ => flushed2_eq V c t) cover2

end Cert.KernelIdeal.RegionValue

end
-- ==== Proof.Region3.lean ====
/-
  Region 3's output array as one function of the arrays the region finds.

  Region 3 computes a relation-layer with no rectifier: x · W_self + mean · W_neigh + b.
  The kernel runs at forty grid points; at point t it is handed rows 5000 t, …, 5000 t + 4999 of x and of the mean, the whole
  of the two weight matrices and of the bias row, and writes the block it computes to the same rows of the output array.
  A block of rows of the layer depends on those rows of x and of the mean only, so what point t writes is rows
  5000 t … of the layer computed on the whole arrays; the forty blocks tile the 200000 rows (row r is in block r / 5000), so
  after the last point the output array is that layer.
-/
import proofs.«144046_j51711406244226_1_alg».proof.Proof.RegionBlock
import Idealize.ShloMosaic.Lib.Pipeline.Value

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b)) (c : Dev nD)

/-- The layer on the arrays region 3 finds: x · W_self + mean · W_neigh + b. -/
abbrev layer3 : Cert.Sage.Mat :=
  Cert.Sage.linearRow (V c (Pipeline.arrRef spec3 0)) (V c (Pipeline.arrRef spec3 1)) (V c (Pipeline.arrRef spec3 2))
    (V c (Pipeline.arrRef spec3 3)) (V c (Pipeline.arrRef spec3 4))

/-- The printed index maps, decided once over the grid: at point `t` the row blocks (x, the mean, the result) are block
    `t` of their arrays, and the weights and the bias row are the whole of theirs. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the layer on the arrays the region finds. -/
theorem flushed3_eq (t : Fin cfg3.N) :
    (dat3 V c).flushed 5 t = ((cfg3.win 5).blk t).view.read (Elt Ideal) (layer3 V c) := by
  show (cfg3.win 5).cut (grid3.coords t) ((dat3 V c).after 5 t) = _
  rw [after3_5]
  obtain ⟨a00, a01, a10, a11, a20, a21, a30, a31, a40, a41, a50, a51⟩ := index_facts3 t
  -- where each window's block at `t` sits in its array: block index × block size + the coordinate inside the block
  have c0 : ∀ y : S5000x128.Idx,
      ((((cfg3.win 0).blk t).view.emb : S5000x128.Idx → S200000x128.Idx) y 0).val = 5000 * t.val + (y 0).val
      ∧ ((((cfg3.win 0).blk t).view.emb : S5000x128.Idx → S200000x128.Idx) y 1).val = (y 1).val := fun y =>
    ⟨by show win3_0.index t (0 : Fin 2) * 5000 + 1 * (y 0).val = _; omega,
     by show win3_0.index t (1 : Fin 2) * 128 + 1 * (y 1).val = _; omega⟩
  have c1 : ∀ y : S5000x128.Idx,
      ((((cfg3.win 1).blk t).view.emb : S5000x128.Idx → S200000x128.Idx) y 0).val = 5000 * t.val + (y 0).val
      ∧ ((((cfg3.win 1).blk t).view.emb : S5000x128.Idx → S200000x128.Idx) y 1).val = (y 1).val := fun y =>
    ⟨by show win3_1.index t (0 : Fin 2) * 5000 + 1 * (y 0).val = _; omega,
     by show win3_1.index t (1 : Fin 2) * 128 + 1 * (y 1).val = _; omega⟩
  have c2 : ∀ y : S128x128.Idx,
      ((((cfg3.win 2).blk t).view.emb : S128x128.Idx → S128x128.Idx) y 0).val = (y 0).val
      ∧ ((((cfg3.win 2).blk t).view.emb : S128x128.Idx → S128x128.Idx) y 1).val = (y 1).val := fun y =>
    ⟨by show win3_2.index t (0 : Fin 2) * 128 + 1 * (y 0).val = _; omega,
     by show win3_2.index t (1 : Fin 2) * 128 + 1 * (y 1).val = _; omega⟩
  have c3 : ∀ y : S128x128.Idx,
      ((((cfg3.win 3).blk t).view.emb : S128x128.Idx → S128x128.Idx) y 0).val = (y 0).val
      ∧ ((((cfg3.win 3).blk t).view.emb : S128x128.Idx → S128x128.Idx) y 1).val = (y 1).val := fun y =>
    ⟨by show win3_3.index t (0 : Fin 2) * 128 + 1 * (y 0).val = _; omega,
     by show win3_3.index t (1 : Fin 2) * 128 + 1 * (y 1).val = _; omega⟩
  have c4 : ∀ y : S1x128.Idx,
      ((((cfg3.win 4).blk t).view.emb : S1x128.Idx → S1x128.Idx) y 1).val = (y 1).val := fun y => by
    show win3_4.index t (1 : Fin 2) * 128 + 1 * (y 1).val = _; omega
  have co : ∀ y : S5000x128.Idx,
      ((((cfg3.win 5).blk t).view.emb : S5000x128.Idx → S200000x128.Idx) y 0).val = 5000 * t.val + (y 0).val
      ∧ ((((cfg3.win 5).blk t).view.emb : S5000x128.Idx → S200000x128.Idx) y 1).val = (y 1).val := fun y =>
    ⟨by show win3_5.index t (0 : Fin 2) * 5000 + 1 * (y 0).val = _; omega,
     by show win3_5.index t (1 : Fin 2) * 128 + 1 * (y 1).val = _; omega⟩
  funext j
  show out3_5 (iblk3 V c 0 t) (iblk3 V c 1 t) (iblk3 V c 2 t) (iblk3 V c 3 t) (iblk3 V c 4 t) j
    = layer3 V c ((((cfg3.win 5).blk t).view.emb : S5000x128.Idx → S200000x128.Idx) j)
  refine (congrFun (out3_eq (iblk3 V c 0 t) (iblk3 V c 1 t) (iblk3 V c 2 t) (iblk3 V c 3 t) (iblk3 V c 4 t)) j).trans ?_
  exact linearBlock_apply (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t)
    ((cfg3.win 0).blk t).view.emb ((cfg3.win 1).blk t).view.emb ((cfg3.win 5).blk t).view.emb
    ((cfg3.win 2).blk t).view.emb ((cfg3.win 3).blk t).view.emb ((cfg3.win 4).blk t).view.emb (5000 * t.val)
    (fun _ => rfl) (fun _ => rfl) (fun _ => rfl) (fun _ => rfl) (fun _ => rfl) c0 c1 c2 c3 c4 co j

/-- An index of the array is in point `t`'s output block iff each coordinate is in the block's range on its axis. -/
theorem mem_block3 (t : Fin cfg3.N) (i : S200000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v83).slice (win3_5.rect t)).set ↔ _
  rw [View.set_slice_whole, Rect.mem_set_unit]
  exact Iff.rfl

/-- The forty output blocks of 5000 rows tile the 200000 rows: row r is in the block of point r / 5000. -/
theorem cover3 (i : S200000x128.Idx) :
    ∃ t : Fin cfg3.N, (cfg3.win 5).flush t = true ∧ i ∈ ((cfg3.win 5).blk t).view.set := by
  have hi0 : (i 0).val < 200000 := (i 0).isLt
  have hi1 : (i 1).val < 128 := (i 1).isLt
  have hN : cfg3.N = 40 := N_3
  obtain ⟨t, ht⟩ : ∃ t : Fin cfg3.N, t.val = (i 0).val / 5000 := ⟨⟨(i 0).val / 5000, by rw [hN]; omega⟩, rfl⟩
  obtain ⟨-, -, -, -, -, -, -, -, -, -, a50, a51⟩ := index_facts3 t
  refine ⟨t, flush3_5 t, ?_⟩
  rw [mem_block3]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- After region 3, its output array is the layer on the arrays the region found. -/
theorem region3_array : (dat3 V c).arrAt 5 cfg3.N
    = Cert.Sage.linearRow (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 (layer3 V c) (fun t _ => flushed3_eq V c t) cover3

end Cert.KernelIdeal.RegionValue

end
-- ==== Proof.RegionValue.lean ====
/-
  The four regions' output arrays, each as one function of the arrays its region finds.

  Regions 0 and 1 leave  leaky (x · W_self + mean · W_neigh + b), regions 2 and 3 leave  x · W_self + mean · W_neigh + b,
  of the five arrays the region's windows 0 … 4 stage (x, the mean, W_self, W_neigh, the bias row), read as the region
  finds them. The four statements are `region0_array` … `region3_array`, one module each; this module gathers them.
-/
import proofs.«144046_j51711406244226_1_alg».proof.Proof.Region0
import proofs.«144046_j51711406244226_1_alg».proof.Proof.Region1
import proofs.«144046_j51711406244226_1_alg».proof.Proof.Region2
import proofs.«144046_j51711406244226_1_alg».proof.Proof.Region3
-- ==== Proof.KernelValue.lean ====
/-
  The kernel program's result array as the network of its launch arguments.

  The program runs nine segments: a host stretch before each of its four regions and one after the last.  Walking the
  buffer contents through the nine boundaries: region 0 leaves the first layer's item table (the rectified
  relation-layer of the user→item edges: its mean input was computed by the stretch before it, its bias row is the bias
  vector recast), region 1 the first layer's user table, regions 2 and 3 the second layer's item and user tables from
  those two, and the last stretch stacks user over item.  No stretch and no region touches an argument array, and a
  first-layer table stays where it is until the second layer reads it.
-/
import proofs.«144046_j51711406244226_1_alg».proof.Proof.KernelPass
import proofs.«144046_j51711406244226_1_alg».proof.Proof.KernelStages
import proofs.«144046_j51711406244226_1_alg».proof.Proof.KernelRun
import proofs.«144046_j51711406244226_1_alg».proof.Proof.RegionValue

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- Argument array `r` of core `c` at launch. -/
abbrev arg (r : Ref sig .tc) : Buf (Elt Ideal) ((c : Thread nD τ).loc r) := m ((c : Thread nD τ).loc r)

/-- The first layer's item table: the user→item relation-layer of the inputs, rectified. -/
def h1Item : Cert.Sage.Mat :=
  Cert.Sage.leaky (Cert.Sage.sage (arg m c main_arg0) (arg m c main_arg1) (arg m c main_arg14) (arg m c main_arg15)
    (arg m c main_arg2) (arg m c main_arg3) (arg m c main_arg4))
/-- The first layer's user table: the item→user relation-layer of the inputs, rectified. -/
def h1User : Cert.Sage.Mat :=
  Cert.Sage.leaky (Cert.Sage.sage (arg m c main_arg1) (arg m c main_arg0) (arg m c main_arg16) (arg m c main_arg17)
    (arg m c main_arg5) (arg m c main_arg6) (arg m c main_arg7))
/-- The second layer's item table. -/
def h2Item : Cert.Sage.Mat :=
  Cert.Sage.sage (h1User m c) (h1Item m c) (arg m c main_arg14) (arg m c main_arg15)
    (arg m c main_arg8) (arg m c main_arg9) (arg m c main_arg10)
/-- The second layer's user table. -/
def h2User : Cert.Sage.Mat :=
  Cert.Sage.sage (h1Item m c) (h1User m c) (arg m c main_arg16) (arg m c main_arg17)
    (arg m c main_arg11) (arg m c main_arg12) (arg m c main_arg13)

/-! ## Region 0: the first layer's item table -/

theorem W2_v20 : W2 m ρ c (Proc.devRef .tc main_v20) = h1Item m c := by
  refine (W2_arr m ρ c 5).trans ((RegionValue.region0_array (V1 m ρ) c).trans ?_)
  show Cert.Sage.leaky (Cert.Sage.linearRow (W1 m ρ c (Proc.devRef .tc main_arg1)) (W1 m ρ c (Proc.devRef .tc main_v18))
    (W1 m ρ c (Proc.devRef .tc main_arg2)) (W1 m ρ c (Proc.devRef .tc main_arg3)) (W1 m ρ c (Proc.devRef .tc main_v19))) = _
  rw [W1_arg1, W1_arg2, W1_arg3, show W1 m ρ c (Proc.devRef .tc main_v18) = _ from mean0 (W0 m ρ c),
    show W1 m ρ c (Proc.devRef .tc main_v19) = _ from bias0 (W0 m ρ c)]
  rfl

/-! ## Region 1: the first layer's user table -/

theorem W4_v41 : W4 m ρ c (Proc.devRef .tc main_v41) = h1User m c := by
  refine (W4_arr m ρ c 5).trans ((RegionValue.region1_array (V3 m ρ) c).trans ?_)
  show Cert.Sage.leaky (Cert.Sage.linearRow (W3 m ρ c (Proc.devRef .tc main_arg0)) (W3 m ρ c (Proc.devRef .tc main_v39))
    (W3 m ρ c (Proc.devRef .tc main_arg5)) (W3 m ρ c (Proc.devRef .tc main_arg6)) (W3 m ρ c (Proc.devRef .tc main_v40))) = _
  rw [W3_arg0, W3_arg5, W3_arg6, show W3 m ρ c (Proc.devRef .tc main_v39) = _ from mean1 (W2 m ρ c),
    show W3 m ρ c (Proc.devRef .tc main_v40) = _ from bias1 (W2 m ρ c), W2_arg1, W2_arg16, W2_arg17, W2_arg7]
  rfl

/-! ## The first layer's tables carried to where the second layer reads them -/

theorem W4_v20 : W4 m ρ c (Proc.devRef .tc main_v20) = h1Item m c :=
  (W4_of_ne m ρ c main_v20 (by decide)).trans ((kept1 (W2 m ρ c) main_v20 (by decide)).trans (W2_v20 m ρ c))
theorem W5_v20 : W5 m ρ c (Proc.devRef .tc main_v20) = h1Item m c :=
  (kept2 (W4 m ρ c) main_v20 (by decide)).trans (W4_v20 m ρ c)
theorem W6_v20 : W6 m ρ c (Proc.devRef .tc main_v20) = h1Item m c :=
  ((W6_arr m ρ c 0).trans (((dat2 (V5 m ρ) c).arrAt_in 0 rfl _).trans (A_eq2 (V5 m ρ) c 0))).trans (W5_v20 m ρ c)
theorem W6_v41 : W6 m ρ c (Proc.devRef .tc main_v41) = h1User m c :=
  (W6_of_ne m ρ c main_v41 (by decide)).trans ((kept2 (W4 m ρ c) main_v41 (by decide)).trans (W4_v41 m ρ c))
theorem W7_v41 : W7 m ρ c (Proc.devRef .tc main_v41) = h1User m c :=
  (kept3 (W6 m ρ c) main_v41 (by decide)).trans (W6_v41 m ρ c)

/-! ## Region 2: the second layer's item table -/

theorem W6_v62 : W6 m ρ c (Proc.devRef .tc main_v62) = h2Item m c := by
  refine (W6_arr m ρ c 5).trans ((RegionValue.region2_array (V5 m ρ) c).trans ?_)
  show Cert.Sage.linearRow (W5 m ρ c (Proc.devRef .tc main_v20)) (W5 m ρ c (Proc.devRef .tc main_v60))
    (W5 m ρ c (Proc.devRef .tc main_arg8)) (W5 m ρ c (Proc.devRef .tc main_arg9)) (W5 m ρ c (Proc.devRef .tc main_v61)) = _
  rw [W5_v20, W5_arg8, W5_arg9, show W5 m ρ c (Proc.devRef .tc main_v60) = _ from mean2 (W4 m ρ c),
    show W5 m ρ c (Proc.devRef .tc main_v61) = _ from bias2 (W4 m ρ c), W4_v41, W4_arg14, W4_arg15, W4_arg10]
  rfl

/-! ## Region 3: the second layer's user table -/

theorem W8_v83 : W8 m ρ c (Proc.devRef .tc main_v83) = h2User m c := by
  refine (W8_arr m ρ c 5).trans ((RegionValue.region3_array (V7 m ρ) c).trans ?_)
  show Cert.Sage.linearRow (W7 m ρ c (Proc.devRef .tc main_v41)) (W7 m ρ c (Proc.devRef .tc main_v81))
    (W7 m ρ c (Proc.devRef .tc main_arg11)) (W7 m ρ c (Proc.devRef .tc main_arg12)) (W7 m ρ c (Proc.devRef .tc main_v82)) = _
  rw [W7_v41, W7_arg11, W7_arg12, show W7 m ρ c (Proc.devRef .tc main_v81) = _ from mean3 (W6 m ρ c),
    show W7 m ρ c (Proc.devRef .tc main_v82) = _ from bias3 (W6 m ρ c), W6_v20, W6_arg16, W6_arg17, W6_arg13]
  rfl

theorem W8_v62 : W8 m ρ c (Proc.devRef .tc main_v62) = h2Item m c :=
  (W8_of_ne m ρ c main_v62 (by decide)).trans ((kept3 (W6 m ρ c) main_v62 (by decide)).trans (W6_v62 m ρ c))

/-! ## The result -/

/-- The result array at the last boundary is the network of the launch arguments. -/
theorem W9_v86 : W9 m ρ c (Proc.devRef .tc main_v86)
    = Cert.Sage.out (arg m c main_arg0) (arg m c main_arg1) (arg m c main_arg2) (arg m c main_arg3) (arg m c main_arg4)
        (arg m c main_arg5) (arg m c main_arg6) (arg m c main_arg7) (arg m c main_arg8) (arg m c main_arg9)
        (arg m c main_arg10) (arg m c main_arg11) (arg m c main_arg12) (arg m c main_arg13) (arg m c main_arg14)
        (arg m c main_arg15) (arg m c main_arg16) (arg m c main_arg17) := by
  refine (stacked (W8 m ρ c)).trans ?_
  rw [W8_v83, W8_v62]
  rfl

/-! ## The run -/

/-- From any launch memory every weakly fair execution of the kernel program terminates without a fault, its result
    array holds the network of the launch arguments, and the argument arrays end as launched. -/
theorem run : θ_run (defs (F := Ideal)) (onTc (τ := τ) (main (F := Ideal))) ⟨m, fun _ => 0, ρ⟩ (fun r => ∀ c : Dev nD,
      r.2.mem ((c.tc : Thread nD τ).loc main_v86)
        = Cert.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v86 (by decide))).trans (W9_v86 m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c)⟩)
    (KernelRun.run_boundary m ρ)

end Cert.KernelIdeal.KernelValue

end
-- ==== Proof.RefRun.lean ====
/-
  The reference program's run, read back as a function of its eighteen argument arrays.

  The program is a straight line of 143 array operations once its two calls of the leaky rectifier (each of which
  calls the element-wise choice) are written out at their call sites over the calls' own buffers.  Run from any
  memory, every buffer ends at the fold of the operations' results over the launch contents; at the result buffer
  that fold is the two-layer mean-aggregation network of Spec.lean applied to the arguments, and no operation
  writes an argument buffer.
-/
import proofs.«144046_j51711406244226_1_alg».proof.Proof.Gen.ReferenceIdeal
import proofs.«144046_j51711406244226_1_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The program's 143 operations in order: the first layer of both relations (operations 1 … 62), the two leaky
    rectifiers written out at their call sites over the calls' own buffers (seven operations each, after the slope
    constant; the change of format of the slope is the identity function), the second layer of both relations,
    and the stacking of the two tables. -/
abbrev ops : List (HloOp τ sig (Elt F)) :=
  [ StableHlo.nullary main_c (constantI S_ 32 0#32),
    StableHlo.unary main_c main_v0 (broadcastInDim S500000 ![] bcast_S_S500000 : (⟨S_, .i32⟩ : BufTy).Contents (Elt F) → (⟨S500000, .i32⟩ : BufTy).Contents (Elt F)),
    StableHlo.binary main_arg14 main_v0 main_v1 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 200000#32),
    StableHlo.unary main_c_0 main_v2 (broadcastInDim S500000 ![] bcast_S_S500000 : (⟨S_, .i32⟩ : BufTy).Contents (Elt F) → (⟨S500000, .i32⟩ : BufTy).Contents (Elt F)),
    StableHlo.binary main_arg14 main_v2 main_v3 (addi : (⟨S500000, .i32⟩ : BufTy).Contents (Elt F) → (⟨S500000, .i32⟩ : BufTy).Contents (Elt F) → (⟨S500000, .i32⟩ : BufTy).Contents (Elt F)),
    StableHlo.ternary main_v1 main_v3 main_arg14 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v4 main_v5 (broadcastInDim S500000x1 ![0] bcast_S500000_S500000x1_0 : (⟨S500000, .i32⟩ : BufTy).Contents (Elt F) → (⟨S500000x1, .i32⟩ : BufTy).Contents (Elt F)),
    StableHlo.binary main_arg0 main_v5 main_v6 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.nullary main_cst (constant S_ .f32 0x00000000#32),
    StableHlo.unary main_cst main_v7 (broadcastInDim S200000x128 ![] bcast_S_S200000x128 : (⟨S_, .f32⟩ : BufTy).Contents (Elt F) → (⟨S200000x128, .f32⟩ : BufTy).Contents (Elt F)),
    StableHlo.unary main_arg15 main_v8 (broadcastInDim S500000x1 ![0] bcast_S500000_S500000x1_0 : (⟨S500000, .i32⟩ : BufTy).Contents (Elt F) → (⟨S500000x1, .i32⟩ : BufTy).Contents (Elt F)),
    StableHlo.ternary main_v7 main_v8 main_v6 main_v9 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_1 (constant S_ .f32 0x3F800000#32),
    StableHlo.unary main_cst_1 main_v10 (broadcastInDim S500000 ![] bcast_S_S500000 : (⟨S_, .f32⟩ : BufTy).Contents (Elt F) → (⟨S500000, .f32⟩ : BufTy).Contents (Elt F)),
    StableHlo.nullary main_cst_2 (constant S_ .f32 0x00000000#32),
    StableHlo.unary main_cst_2 main_v11 (broadcastInDim S200000 ![] bcast_S_S200000 : (⟨S_, .f32⟩ : BufTy).Contents (Elt F) → (⟨S200000, .f32⟩ : BufTy).Contents (Elt F)),
    StableHlo.unary main_arg15 main_v12 (broadcastInDim S500000x1 ![0] bcast_S500000_S500000x1_0 : (⟨S500000, .i32⟩ : BufTy).Contents (Elt F) → (⟨S500000x1, .i32⟩ : BufTy).Contents (Elt F)),
    StableHlo.ternary main_v11 main_v12 main_v10 main_v13 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_3 (constant S_ .f32 0x3F800000#32),
    StableHlo.unary main_cst_3 main_v14 (broadcastInDim S200000 ![] bcast_S_S200000 : (⟨S_, .f32⟩ : BufTy).Contents (Elt F) → (⟨S200000, .f32⟩ : BufTy).Contents (Elt F)),
    StableHlo.binary main_v13 main_v14 main_v15 (maximumf : (⟨S200000, .f32⟩ : BufTy).Contents (Elt F) → (⟨S200000, .f32⟩ : BufTy).Contents (Elt F) → (⟨S200000, .f32⟩ : BufTy).Contents (Elt F)),
    StableHlo.unary main_v15 main_v16 (broadcastInDim S200000x1 ![0] bcast_S200000_S200000x1_0 : (⟨S200000, .f32⟩ : BufTy).Contents (Elt F) → (⟨S200000x1, .f32⟩ : BufTy).Contents (Elt F)),
    StableHlo.unary main_v16 main_v17 (broadcastInDim S200000x128 ![0, 1] bcast_S200000x1_S200000x128_0_1 : (⟨S200000x1, .f32⟩ : BufTy).Contents (Elt F) → (⟨S200000x128, .f32⟩ : BufTy).Contents (Elt F)),
    StableHlo.binary main_v9 main_v17 main_v18 (Host.divf : (⟨S200000x128, .f32⟩ : BufTy).Contents (Elt F) → (⟨S200000x128, .f32⟩ : BufTy).Contents (Elt F) → (⟨S200000x128, .f32⟩ : BufTy).Contents (Elt F)),
    StableHlo.binary main_arg1 main_arg2 main_v19 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v18 main_arg3 main_v20 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v19 main_v20 main_v21 (addf : (⟨S200000x128, .f32⟩ : BufTy).Contents (Elt F) → (⟨S200000x128, .f32⟩ : BufTy).Contents (Elt F) → (⟨S200000x128, .f32⟩ : BufTy).Contents (Elt F)),
    StableHlo.unary main_arg4 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S200000x128 ![0, 1] bcast_S1x128_S200000x128_0_1 : (⟨S1x128, .f32⟩ : BufTy).Contents (Elt F) → (⟨S200000x128, .f32⟩ : BufTy).Contents (Elt F)),
    StableHlo.binary main_v21 main_v23 main_v24 (addf : (⟨S200000x128, .f32⟩ : BufTy).Contents (Elt F) → (⟨S200000x128, .f32⟩ : BufTy).Contents (Elt F) → (⟨S200000x128, .f32⟩ : BufTy).Contents (Elt F)),
    StableHlo.nullary main_c_4 (constantI S_ 32 0#32),
    StableHlo.unary main_c_4 main_v25 (broadcastInDim S500000 ![] bcast_S_S500000 : (⟨S_, .i32⟩ : BufTy).Contents (Elt F) → (⟨S500000, .i32⟩ : BufTy).Contents (Elt F)),
    StableHlo.binary main_arg16 main_v25 main_v26 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 200000#32),
    StableHlo.unary main_c_5 main_v27 (broadcastInDim S500000 ![] bcast_S_S500000 : (⟨S_, .i32⟩ : BufTy).Contents (Elt F) → (⟨S500000, .i32⟩ : BufTy).Contents (Elt F)),
    StableHlo.binary main_arg16 main_v27 main_v28 (addi : (⟨S500000, .i32⟩ : BufTy).Contents (Elt F) → (⟨S500000, .i32⟩ : BufTy).Contents (Elt F) → (⟨S500000, .i32⟩ : BufTy).Contents (Elt F)),
    StableHlo.ternary main_v26 main_v28 main_arg16 main_v29 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v29 main_v30 (broadcastInDim S500000x1 ![0] bcast_S500000_S500000x1_0 : (⟨S500000, .i32⟩ : BufTy).Contents (Elt F) → (⟨S500000x1, .i32⟩ : BufTy).Contents (Elt F)),
    StableHlo.binary main_arg1 main_v30 main_v31 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.nullary main_cst_6 (constant S_ .f32 0x00000000#32),
    StableHlo.unary main_cst_6 main_v32 (broadcastInDim S200000x128 ![] bcast_S_S200000x128 : (⟨S_, .f32⟩ : BufTy).Contents (Elt F) → (⟨S200000x128, .f32⟩ : BufTy).Contents (Elt F)),
    StableHlo.unary main_arg17 main_v33 (broadcastInDim S500000x1 ![0] bcast_S500000_S500000x1_0 : (⟨S500000, .i32⟩ : BufTy).Contents (Elt F) → (⟨S500000x1, .i32⟩ : BufTy).Contents (Elt F)),
    StableHlo.ternary main_v32 main_v33 main_v31 main_v34 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_7 (constant S_ .f32 0x3F800000#32),
    StableHlo.unary main_cst_7 main_v35 (broadcastInDim S500000 ![] bcast_S_S500000 : (⟨S_, .f32⟩ : BufTy).Contents (Elt F) → (⟨S500000, .f32⟩ : BufTy).Contents (Elt F)),
    StableHlo.nullary main_cst_8 (constant S_ .f32 0x00000000#32),
    StableHlo.unary main_cst_8 main_v36 (broadcastInDim S200000 ![] bcast_S_S200000 : (⟨S_, .f32⟩ : BufTy).Contents (Elt F) → (⟨S200000, .f32⟩ : BufTy).Contents (Elt F)),
    StableHlo.unary main_arg17 main_v37 (broadcastInDim S500000x1 ![0] bcast_S500000_S500000x1_0 : (⟨S500000, .i32⟩ : BufTy).Contents (Elt F) → (⟨S500000x1, .i32⟩ : BufTy).Contents (Elt F)),
    StableHlo.ternary main_v36 main_v37 main_v35 main_v38 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_9 (constant S_ .f32 0x3F800000#32),
    StableHlo.unary main_cst_9 main_v39 (broadcastInDim S200000 ![] bcast_S_S200000 : (⟨S_, .f32⟩ : BufTy).Contents (Elt F) → (⟨S200000, .f32⟩ : BufTy).Contents (Elt F)),
    StableHlo.binary main_v38 main_v39 main_v40 (maximumf : (⟨S200000, .f32⟩ : BufTy).Contents (Elt F) → (⟨S200000, .f32⟩ : BufTy).Contents (Elt F) → (⟨S200000, .f32⟩ : BufTy).Contents (Elt F)),
    StableHlo.unary main_v40 main_v41 (broadcastInDim S200000x1 ![0] bcast_S200000_S200000x1_0 : (⟨S200000, .f32⟩ : BufTy).Contents (Elt F) → (⟨S200000x1, .f32⟩ : BufTy).Contents (Elt F)),
    StableHlo.unary main_v41 main_v42 (broadcastInDim S200000x128 ![0, 1] bcast_S200000x1_S200000x128_0_1 : (⟨S200000x1, .f32⟩ : BufTy).Contents (Elt F) → (⟨S200000x128, .f32⟩ : BufTy).Contents (Elt F)),
    StableHlo.binary main_v34 main_v42 main_v43 (Host.divf : (⟨S200000x128, .f32⟩ : BufTy).Contents (Elt F) → (⟨S200000x128, .f32⟩ : BufTy).Contents (Elt F) → (⟨S200000x128, .f32⟩ : BufTy).Contents (Elt F)),
    StableHlo.binary main_arg0 main_arg5 main_v44 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v43 main_arg6 main_v45 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v44 main_v45 main_v46 (addf : (⟨S200000x128, .f32⟩ : BufTy).Contents (Elt F) → (⟨S200000x128, .f32⟩ : BufTy).Contents (Elt F) → (⟨S200000x128, .f32⟩ : BufTy).Contents (Elt F)),
    StableHlo.unary main_arg7 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S200000x128 ![0, 1] bcast_S1x128_S200000x128_0_1 : (⟨S1x128, .f32⟩ : BufTy).Contents (Elt F) → (⟨S200000x128, .f32⟩ : BufTy).Contents (Elt F)),
    StableHlo.binary main_v46 main_v48 main_v49 (addf : (⟨S200000x128, .f32⟩ : BufTy).Contents (Elt F) → (⟨S200000x128, .f32⟩ : BufTy).Contents (Elt F) → (⟨S200000x128, .f32⟩ : BufTy).Contents (Elt F)),
    StableHlo.nullary main_cst_10 (constant S_ .f32 0x3C23D70A#32),
    StableHlo.nullary main_call0_cst (constant S_ .f32 0x00000000#32),
    StableHlo.unary main_call0_cst main_call0_v0 (broadcastInDim S200000x128 ![] bcast_S_S200000x128 : (⟨S_, .f32⟩ : BufTy).Contents (Elt F) → (⟨S200000x128, .f32⟩ : BufTy).Contents (Elt F)),
    StableHlo.binary main_v24 main_call0_v0 main_call0_v1 (cmpf .oge : (⟨S200000x128, .f32⟩ : BufTy).Contents (Elt F) → (⟨S200000x128, .f32⟩ : BufTy).Contents (Elt F) → (⟨S200000x128, .i1⟩ : BufTy).Contents (Elt F)),
    StableHlo.unary main_cst_10 main_call0_v2 ((fun s => s) : (⟨S_, .f32⟩ : BufTy).Contents (Elt F) → (⟨S_, .f32⟩ : BufTy).Contents (Elt F)),
    StableHlo.unary main_call0_v2 main_call0_v3 (broadcastInDim S200000x128 ![] bcast_S_S200000x128 : (⟨S_, .f32⟩ : BufTy).Contents (Elt F) → (⟨S200000x128, .f32⟩ : BufTy).Contents (Elt F)),
    StableHlo.binary main_call0_v3 main_v24 main_call0_v4 (mulf : (⟨S200000x128, .f32⟩ : BufTy).Contents (Elt F) → (⟨S200000x128, .f32⟩ : BufTy).Contents (Elt F) → (⟨S200000x128, .f32⟩ : BufTy).Contents (Elt F)),
    StableHlo.ternary main_call0_v1 main_v24 main_call0_v4 main_v50 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)),
    StableHlo.nullary main_cst_11 (constant S_ .f32 0x3C23D70A#32),
    StableHlo.nullary main_call1_cst (constant S_ .f32 0x00000000#32),
    StableHlo.unary main_call1_cst main_call1_v0 (broadcastInDim S200000x128 ![] bcast_S_S200000x128 : (⟨S_, .f32⟩ : BufTy).Contents (Elt F) → (⟨S200000x128, .f32⟩ : BufTy).Contents (Elt F)),
    StableHlo.binary main_v49 main_call1_v0 main_call1_v1 (cmpf .oge : (⟨S200000x128, .f32⟩ : BufTy).Contents (Elt F) → (⟨S200000x128, .f32⟩ : BufTy).Contents (Elt F) → (⟨S200000x128, .i1⟩ : BufTy).Contents (Elt F)),
    StableHlo.unary main_cst_11 main_call1_v2 ((fun s => s) : (⟨S_, .f32⟩ : BufTy).Contents (Elt F) → (⟨S_, .f32⟩ : BufTy).Contents (Elt F)),
    StableHlo.unary main_call1_v2 main_call1_v3 (broadcastInDim S200000x128 ![] bcast_S_S200000x128 : (⟨S_, .f32⟩ : BufTy).Contents (Elt F) → (⟨S200000x128, .f32⟩ : BufTy).Contents (Elt F)),
    StableHlo.binary main_call1_v3 main_v49 main_call1_v4 (mulf : (⟨S200000x128, .f32⟩ : BufTy).Contents (Elt F) → (⟨S200000x128, .f32⟩ : BufTy).Contents (Elt F) → (⟨S200000x128, .f32⟩ : BufTy).Contents (Elt F)),
    StableHlo.ternary main_call1_v1 main_v49 main_call1_v4 main_v51 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)),
    StableHlo.nullary main_c_12 (constantI S_ 32 0#32),
    StableHlo.unary main_c_12 main_v52 (broadcastInDim S500000 ![] bcast_S_S500000 : (⟨S_, .i32⟩ : BufTy).Contents (Elt F) → (⟨S500000, .i32⟩ : BufTy).Contents (Elt F)),
    StableHlo.binary main_arg14 main_v52 main_v53 (cmpi .slt : (⟨S500000, .i32⟩ : BufTy).Contents (Elt F) → (⟨S500000, .i32⟩ : BufTy).Contents (Elt F) → (⟨S500000, .i1⟩ : BufTy).Contents (Elt F)),
    StableHlo.nullary main_c_13 (constantI S_ 32 200000#32),
    StableHlo.unary main_c_13 main_v54 (broadcastInDim S500000 ![] bcast_S_S500000 : (⟨S_, .i32⟩ : BufTy).Contents (Elt F) → (⟨S500000, .i32⟩ : BufTy).Contents (Elt F)),
    StableHlo.binary main_arg14 main_v54 main_v55 (addi : (⟨S500000, .i32⟩ : BufTy).Contents (Elt F) → (⟨S500000, .i32⟩ : BufTy).Contents (Elt F) → (⟨S500000, .i32⟩ : BufTy).Contents (Elt F)),
    StableHlo.ternary main_v53 main_v55 main_arg14 main_v56 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v56 main_v57 (broadcastInDim S500000x1 ![0] bcast_S500000_S500000x1_0 : (⟨S500000, .i32⟩ : BufTy).Contents (Elt F) → (⟨S500000x1, .i32⟩ : BufTy).Contents (Elt F)),
    StableHlo.binary main_v51 main_v57 main_v58 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.nullary main_cst_14 (constant S_ .f32 0x00000000#32),
    StableHlo.unary main_cst_14 main_v59 (broadcastInDim S200000x128 ![] bcast_S_S200000x128 : (⟨S_, .f32⟩ : BufTy).Contents (Elt F) → (⟨S200000x128, .f32⟩ : BufTy).Contents (Elt F)),
    StableHlo.unary main_arg15 main_v60 (broadcastInDim S500000x1 ![0] bcast_S500000_S500000x1_0 : (⟨S500000, .i32⟩ : BufTy).Contents (Elt F) → (⟨S500000x1, .i32⟩ : BufTy).Contents (Elt F)),
    StableHlo.ternary main_v59 main_v60 main_v58 main_v61 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_15 (constant S_ .f32 0x3F800000#32),
    StableHlo.unary main_cst_15 main_v62 (broadcastInDim S500000 ![] bcast_S_S500000 : (⟨S_, .f32⟩ : BufTy).Contents (Elt F) → (⟨S500000, .f32⟩ : BufTy).Contents (Elt F)),
    StableHlo.nullary main_cst_16 (constant S_ .f32 0x00000000#32),
    StableHlo.unary main_cst_16 main_v63 (broadcastInDim S200000 ![] bcast_S_S200000 : (⟨S_, .f32⟩ : BufTy).Contents (Elt F) → (⟨S200000, .f32⟩ : BufTy).Contents (Elt F)),
    StableHlo.unary main_arg15 main_v64 (broadcastInDim S500000x1 ![0] bcast_S500000_S500000x1_0 : (⟨S500000, .i32⟩ : BufTy).Contents (Elt F) → (⟨S500000x1, .i32⟩ : BufTy).Contents (Elt F)),
    StableHlo.ternary main_v63 main_v64 main_v62 main_v65 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_17 (constant S_ .f32 0x3F800000#32),
    StableHlo.unary main_cst_17 main_v66 (broadcastInDim S200000 ![] bcast_S_S200000 : (⟨S_, .f32⟩ : BufTy).Contents (Elt F) → (⟨S200000, .f32⟩ : BufTy).Contents (Elt F)),
    StableHlo.binary main_v65 main_v66 main_v67 (maximumf : (⟨S200000, .f32⟩ : BufTy).Contents (Elt F) → (⟨S200000, .f32⟩ : BufTy).Contents (Elt F) → (⟨S200000, .f32⟩ : BufTy).Contents (Elt F)),
    StableHlo.unary main_v67 main_v68 (broadcastInDim S200000x1 ![0] bcast_S200000_S200000x1_0 : (⟨S200000, .f32⟩ : BufTy).Contents (Elt F) → (⟨S200000x1, .f32⟩ : BufTy).Contents (Elt F)),
    StableHlo.unary main_v68 main_v69 (broadcastInDim S200000x128 ![0, 1] bcast_S200000x1_S200000x128_0_1 : (⟨S200000x1, .f32⟩ : BufTy).Contents (Elt F) → (⟨S200000x128, .f32⟩ : BufTy).Contents (Elt F)),
    StableHlo.binary main_v61 main_v69 main_v70 (Host.divf : (⟨S200000x128, .f32⟩ : BufTy).Contents (Elt F) → (⟨S200000x128, .f32⟩ : BufTy).Contents (Elt F) → (⟨S200000x128, .f32⟩ : BufTy).Contents (Elt F)),
    StableHlo.binary main_v50 main_arg8 main_v71 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v70 main_arg9 main_v72 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v71 main_v72 main_v73 (addf : (⟨S200000x128, .f32⟩ : BufTy).Contents (Elt F) → (⟨S200000x128, .f32⟩ : BufTy).Contents (Elt F) → (⟨S200000x128, .f32⟩ : BufTy).Contents (Elt F)),
    StableHlo.unary main_arg10 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S200000x128 ![0, 1] bcast_S1x128_S200000x128_0_1 : (⟨S1x128, .f32⟩ : BufTy).Contents (Elt F) → (⟨S200000x128, .f32⟩ : BufTy).Contents (Elt F)),
    StableHlo.binary main_v73 main_v75 main_v76 (addf : (⟨S200000x128, .f32⟩ : BufTy).Contents (Elt F) → (⟨S200000x128, .f32⟩ : BufTy).Contents (Elt F) → (⟨S200000x128, .f32⟩ : BufTy).Contents (Elt F)),
    StableHlo.nullary main_c_18 (constantI S_ 32 0#32),
    StableHlo.unary main_c_18 main_v77 (broadcastInDim S500000 ![] bcast_S_S500000 : (⟨S_, .i32⟩ : BufTy).Contents (Elt F) → (⟨S500000, .i32⟩ : BufTy).Contents (Elt F)),
    StableHlo.binary main_arg16 main_v77 main_v78 (cmpi .slt : (⟨S500000, .i32⟩ : BufTy).Contents (Elt F) → (⟨S500000, .i32⟩ : BufTy).Contents (Elt F) → (⟨S500000, .i1⟩ : BufTy).Contents (Elt F)),
    StableHlo.nullary main_c_19 (constantI S_ 32 200000#32),
    StableHlo.unary main_c_19 main_v79 (broadcastInDim S500000 ![] bcast_S_S500000 : (⟨S_, .i32⟩ : BufTy).Contents (Elt F) → (⟨S500000, .i32⟩ : BufTy).Contents (Elt F)),
    StableHlo.binary main_arg16 main_v79 main_v80 (addi : (⟨S500000, .i32⟩ : BufTy).Contents (Elt F) → (⟨S500000, .i32⟩ : BufTy).Contents (Elt F) → (⟨S500000, .i32⟩ : BufTy).Contents (Elt F)),
    StableHlo.ternary main_v78 main_v80 main_arg16 main_v81 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v81 main_v82 (broadcastInDim S500000x1 ![0] bcast_S500000_S500000x1_0 : (⟨S500000, .i32⟩ : BufTy).Contents (Elt F) → (⟨S500000x1, .i32⟩ : BufTy).Contents (Elt F)),
    StableHlo.binary main_v50 main_v82 main_v83 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.nullary main_cst_20 (constant S_ .f32 0x00000000#32),
    StableHlo.unary main_cst_20 main_v84 (broadcastInDim S200000x128 ![] bcast_S_S200000x128 : (⟨S_, .f32⟩ : BufTy).Contents (Elt F) → (⟨S200000x128, .f32⟩ : BufTy).Contents (Elt F)),
    StableHlo.unary main_arg17 main_v85 (broadcastInDim S500000x1 ![0] bcast_S500000_S500000x1_0 : (⟨S500000, .i32⟩ : BufTy).Contents (Elt F) → (⟨S500000x1, .i32⟩ : BufTy).Contents (Elt F)),
    StableHlo.ternary main_v84 main_v85 main_v83 main_v86 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_21 (constant S_ .f32 0x3F800000#32),
    StableHlo.unary main_cst_21 main_v87 (broadcastInDim S500000 ![] bcast_S_S500000 : (⟨S_, .f32⟩ : BufTy).Contents (Elt F) → (⟨S500000, .f32⟩ : BufTy).Contents (Elt F)),
    StableHlo.nullary main_cst_22 (constant S_ .f32 0x00000000#32),
    StableHlo.unary main_cst_22 main_v88 (broadcastInDim S200000 ![] bcast_S_S200000 : (⟨S_, .f32⟩ : BufTy).Contents (Elt F) → (⟨S200000, .f32⟩ : BufTy).Contents (Elt F)),
    StableHlo.unary main_arg17 main_v89 (broadcastInDim S500000x1 ![0] bcast_S500000_S500000x1_0 : (⟨S500000, .i32⟩ : BufTy).Contents (Elt F) → (⟨S500000x1, .i32⟩ : BufTy).Contents (Elt F)),
    StableHlo.ternary main_v88 main_v89 main_v87 main_v90 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_23 (constant S_ .f32 0x3F800000#32),
    StableHlo.unary main_cst_23 main_v91 (broadcastInDim S200000 ![] bcast_S_S200000 : (⟨S_, .f32⟩ : BufTy).Contents (Elt F) → (⟨S200000, .f32⟩ : BufTy).Contents (Elt F)),
    StableHlo.binary main_v90 main_v91 main_v92 (maximumf : (⟨S200000, .f32⟩ : BufTy).Contents (Elt F) → (⟨S200000, .f32⟩ : BufTy).Contents (Elt F) → (⟨S200000, .f32⟩ : BufTy).Contents (Elt F)),
    StableHlo.unary main_v92 main_v93 (broadcastInDim S200000x1 ![0] bcast_S200000_S200000x1_0 : (⟨S200000, .f32⟩ : BufTy).Contents (Elt F) → (⟨S200000x1, .f32⟩ : BufTy).Contents (Elt F)),
    StableHlo.unary main_v93 main_v94 (broadcastInDim S200000x128 ![0, 1] bcast_S200000x1_S200000x128_0_1 : (⟨S200000x1, .f32⟩ : BufTy).Contents (Elt F) → (⟨S200000x128, .f32⟩ : BufTy).Contents (Elt F)),
    StableHlo.binary main_v86 main_v94 main_v95 (Host.divf : (⟨S200000x128, .f32⟩ : BufTy).Contents (Elt F) → (⟨S200000x128, .f32⟩ : BufTy).Contents (Elt F) → (⟨S200000x128, .f32⟩ : BufTy).Contents (Elt F)),
    StableHlo.binary main_v51 main_arg11 main_v96 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v95 main_arg12 main_v97 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v96 main_v97 main_v98 (addf : (⟨S200000x128, .f32⟩ : BufTy).Contents (Elt F) → (⟨S200000x128, .f32⟩ : BufTy).Contents (Elt F) → (⟨S200000x128, .f32⟩ : BufTy).Contents (Elt F)),
    StableHlo.unary main_arg13 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S200000x128 ![0, 1] bcast_S1x128_S200000x128_0_1 : (⟨S1x128, .f32⟩ : BufTy).Contents (Elt F) → (⟨S200000x128, .f32⟩ : BufTy).Contents (Elt F)),
    StableHlo.binary main_v98 main_v100 main_v101 (addf : (⟨S200000x128, .f32⟩ : BufTy).Contents (Elt F) → (⟨S200000x128, .f32⟩ : BufTy).Contents (Elt F) → (⟨S200000x128, .f32⟩ : BufTy).Contents (Elt F)),
    StableHlo.unary main_v101 main_v102 (broadcastInDim S1x200000x128 ![1, 2] bcast_S200000x128_S1x200000x128_1_2 : (⟨S200000x128, .f32⟩ : BufTy).Contents (Elt F) → (⟨S1x200000x128, .f32⟩ : BufTy).Contents (Elt F)),
    StableHlo.unary main_v76 main_v103 (broadcastInDim S1x200000x128 ![1, 2] bcast_S200000x128_S1x200000x128_1_2 : (⟨S200000x128, .f32⟩ : BufTy).Contents (Elt F) → (⟨S1x200000x128, .f32⟩ : BufTy).Contents (Elt F)),
    StableHlo.binary main_v102 main_v103 main_v104 ((fun a b => concatenate S2x200000x128 0 [⟨S1x200000x128, a⟩, ⟨S1x200000x128, b⟩] concatenates_S1x200000x128_S1x200000x128_S2x200000x128_d0) : (⟨S1x200000x128, .f32⟩ : BufTy).Contents (Elt F) → (⟨S1x200000x128, .f32⟩ : BufTy).Contents (Elt F) → (⟨S2x200000x128, .f32⟩ : BufTy).Contents (Elt F)) ]

set_option maxRecDepth 8192 in
set_option maxHeartbeats 4000000 in
/-- The program is that straight line: the three windows, the rectifier's body and the choice's body unfold, and
    sequencing reassociates, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., nullary_bufs_sub ..,
    unary_bufs_sub .., binary_bufs_sub .., unary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., binary_bufs_sub .., binary_bufs_sub .., unary_bufs_sub ..,
    unary_bufs_sub .., binary_bufs_sub .., unary_bufs_sub .., unary_bufs_sub .., binary_bufs_sub ..⟩

set_option maxRecDepth 8192 in
/-- All operations but the last three: everything up to the two second-layer tables. -/
abbrev front : List (HloOp τ sig (Elt F)) :=
  [ StableHlo.nullary main_c (constantI S_ 32 0#32),
    StableHlo.unary main_c main_v0 (broadcastInDim S500000 ![] bcast_S_S500000 : (⟨S_, .i32⟩ : BufTy).Contents (Elt F) → (⟨S500000, .i32⟩ : BufTy).Contents (Elt F)),
    StableHlo.binary main_arg14 main_v0 main_v1 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 200000#32),
    StableHlo.unary main_c_0 main_v2 (broadcastInDim S500000 ![] bcast_S_S500000 : (⟨S_, .i32⟩ : BufTy).Contents (Elt F) → (⟨S500000, .i32⟩ : BufTy).Contents (Elt F)),
    StableHlo.binary main_arg14 main_v2 main_v3 (addi : (⟨S500000, .i32⟩ : BufTy).Contents (Elt F) → (⟨S500000, .i32⟩ : BufTy).Contents (Elt F) → (⟨S500000, .i32⟩ : BufTy).Contents (Elt F)),
    StableHlo.ternary main_v1 main_v3 main_arg14 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v4 main_v5 (broadcastInDim S500000x1 ![0] bcast_S500000_S500000x1_0 : (⟨S500000, .i32⟩ : BufTy).Contents (Elt F) → (⟨S500000x1, .i32⟩ : BufTy).Contents (Elt F)),
    StableHlo.binary main_arg0 main_v5 main_v6 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.nullary main_cst (constant S_ .f32 0x00000000#32),
    StableHlo.unary main_cst main_v7 (broadcastInDim S200000x128 ![] bcast_S_S200000x128 : (⟨S_, .f32⟩ : BufTy).Contents (Elt F) → (⟨S200000x128, .f32⟩ : BufTy).Contents (Elt F)),
    StableHlo.unary main_arg15 main_v8 (broadcastInDim S500000x1 ![0] bcast_S500000_S500000x1_0 : (⟨S500000, .i32⟩ : BufTy).Contents (Elt F) → (⟨S500000x1, .i32⟩ : BufTy).Contents (Elt F)),
    StableHlo.ternary main_v7 main_v8 main_v6 main_v9 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_1 (constant S_ .f32 0x3F800000#32),
    StableHlo.unary main_cst_1 main_v10 (broadcastInDim S500000 ![] bcast_S_S500000 : (⟨S_, .f32⟩ : BufTy).Contents (Elt F) → (⟨S500000, .f32⟩ : BufTy).Contents (Elt F)),
    StableHlo.nullary main_cst_2 (constant S_ .f32 0x00000000#32),
    StableHlo.unary main_cst_2 main_v11 (broadcastInDim S200000 ![] bcast_S_S200000 : (⟨S_, .f32⟩ : BufTy).Contents (Elt F) → (⟨S200000, .f32⟩ : BufTy).Contents (Elt F)),
    StableHlo.unary main_arg15 main_v12 (broadcastInDim S500000x1 ![0] bcast_S500000_S500000x1_0 : (⟨S500000, .i32⟩ : BufTy).Contents (Elt F) → (⟨S500000x1, .i32⟩ : BufTy).Contents (Elt F)),
    StableHlo.ternary main_v11 main_v12 main_v10 main_v13 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_3 (constant S_ .f32 0x3F800000#32),
    StableHlo.unary main_cst_3 main_v14 (broadcastInDim S200000 ![] bcast_S_S200000 : (⟨S_, .f32⟩ : BufTy).Contents (Elt F) → (⟨S200000, .f32⟩ : BufTy).Contents (Elt F)),
    StableHlo.binary main_v13 main_v14 main_v15 (maximumf : (⟨S200000, .f32⟩ : BufTy).Contents (Elt F) → (⟨S200000, .f32⟩ : BufTy).Contents (Elt F) → (⟨S200000, .f32⟩ : BufTy).Contents (Elt F)),
    StableHlo.unary main_v15 main_v16 (broadcastInDim S200000x1 ![0] bcast_S200000_S200000x1_0 : (⟨S200000, .f32⟩ : BufTy).Contents (Elt F) → (⟨S200000x1, .f32⟩ : BufTy).Contents (Elt F)),
    StableHlo.unary main_v16 main_v17 (broadcastInDim S200000x128 ![0, 1] bcast_S200000x1_S200000x128_0_1 : (⟨S200000x1, .f32⟩ : BufTy).Contents (Elt F) → (⟨S200000x128, .f32⟩ : BufTy).Contents (Elt F)),
    StableHlo.binary main_v9 main_v17 main_v18 (Host.divf : (⟨S200000x128, .f32⟩ : BufTy).Contents (Elt F) → (⟨S200000x128, .f32⟩ : BufTy).Contents (Elt F) → (⟨S200000x128, .f32⟩ : BufTy).Contents (Elt F)),
    StableHlo.binary main_arg1 main_arg2 main_v19 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v18 main_arg3 main_v20 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v19 main_v20 main_v21 (addf : (⟨S200000x128, .f32⟩ : BufTy).Contents (Elt F) → (⟨S200000x128, .f32⟩ : BufTy).Contents (Elt F) → (⟨S200000x128, .f32⟩ : BufTy).Contents (Elt F)),
    StableHlo.unary main_arg4 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S200000x128 ![0, 1] bcast_S1x128_S200000x128_0_1 : (⟨S1x128, .f32⟩ : BufTy).Contents (Elt F) → (⟨S200000x128, .f32⟩ : BufTy).Contents (Elt F)),
    StableHlo.binary main_v21 main_v23 main_v24 (addf : (⟨S200000x128, .f32⟩ : BufTy).Contents (Elt F) → (⟨S200000x128, .f32⟩ : BufTy).Contents (Elt F) → (⟨S200000x128, .f32⟩ : BufTy).Contents (Elt F)),
    StableHlo.nullary main_c_4 (constantI S_ 32 0#32),
    StableHlo.unary main_c_4 main_v25 (broadcastInDim S500000 ![] bcast_S_S500000 : (⟨S_, .i32⟩ : BufTy).Contents (Elt F) → (⟨S500000, .i32⟩ : BufTy).Contents (Elt F)),
    StableHlo.binary main_arg16 main_v25 main_v26 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 200000#32),
    StableHlo.unary main_c_5 main_v27 (broadcastInDim S500000 ![] bcast_S_S500000 : (⟨S_, .i32⟩ : BufTy).Contents (Elt F) → (⟨S500000, .i32⟩ : BufTy).Contents (Elt F)),
    StableHlo.binary main_arg16 main_v27 main_v28 (addi : (⟨S500000, .i32⟩ : BufTy).Contents (Elt F) → (⟨S500000, .i32⟩ : BufTy).Contents (Elt F) → (⟨S500000, .i32⟩ : BufTy).Contents (Elt F)),
    StableHlo.ternary main_v26 main_v28 main_arg16 main_v29 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v29 main_v30 (broadcastInDim S500000x1 ![0] bcast_S500000_S500000x1_0 : (⟨S500000, .i32⟩ : BufTy).Contents (Elt F) → (⟨S500000x1, .i32⟩ : BufTy).Contents (Elt F)),
    StableHlo.binary main_arg1 main_v30 main_v31 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.nullary main_cst_6 (constant S_ .f32 0x00000000#32),
    StableHlo.unary main_cst_6 main_v32 (broadcastInDim S200000x128 ![] bcast_S_S200000x128 : (⟨S_, .f32⟩ : BufTy).Contents (Elt F) → (⟨S200000x128, .f32⟩ : BufTy).Contents (Elt F)),
    StableHlo.unary main_arg17 main_v33 (broadcastInDim S500000x1 ![0] bcast_S500000_S500000x1_0 : (⟨S500000, .i32⟩ : BufTy).Contents (Elt F) → (⟨S500000x1, .i32⟩ : BufTy).Contents (Elt F)),
    StableHlo.ternary main_v32 main_v33 main_v31 main_v34 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_7 (constant S_ .f32 0x3F800000#32),
    StableHlo.unary main_cst_7 main_v35 (broadcastInDim S500000 ![] bcast_S_S500000 : (⟨S_, .f32⟩ : BufTy).Contents (Elt F) → (⟨S500000, .f32⟩ : BufTy).Contents (Elt F)),
    StableHlo.nullary main_cst_8 (constant S_ .f32 0x00000000#32),
    StableHlo.unary main_cst_8 main_v36 (broadcastInDim S200000 ![] bcast_S_S200000 : (⟨S_, .f32⟩ : BufTy).Contents (Elt F) → (⟨S200000, .f32⟩ : BufTy).Contents (Elt F)),
    StableHlo.unary main_arg17 main_v37 (broadcastInDim S500000x1 ![0] bcast_S500000_S500000x1_0 : (⟨S500000, .i32⟩ : BufTy).Contents (Elt F) → (⟨S500000x1, .i32⟩ : BufTy).Contents (Elt F)),
    StableHlo.ternary main_v36 main_v37 main_v35 main_v38 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_9 (constant S_ .f32 0x3F800000#32),
    StableHlo.unary main_cst_9 main_v39 (broadcastInDim S200000 ![] bcast_S_S200000 : (⟨S_, .f32⟩ : BufTy).Contents (Elt F) → (⟨S200000, .f32⟩ : BufTy).Contents (Elt F)),
    StableHlo.binary main_v38 main_v39 main_v40 (maximumf : (⟨S200000, .f32⟩ : BufTy).Contents (Elt F) → (⟨S200000, .f32⟩ : BufTy).Contents (Elt F) → (⟨S200000, .f32⟩ : BufTy).Contents (Elt F)),
    StableHlo.unary main_v40 main_v41 (broadcastInDim S200000x1 ![0] bcast_S200000_S200000x1_0 : (⟨S200000, .f32⟩ : BufTy).Contents (Elt F) → (⟨S200000x1, .f32⟩ : BufTy).Contents (Elt F)),
    StableHlo.unary main_v41 main_v42 (broadcastInDim S200000x128 ![0, 1] bcast_S200000x1_S200000x128_0_1 : (⟨S200000x1, .f32⟩ : BufTy).Contents (Elt F) → (⟨S200000x128, .f32⟩ : BufTy).Contents (Elt F)),
    StableHlo.binary main_v34 main_v42 main_v43 (Host.divf : (⟨S200000x128, .f32⟩ : BufTy).Contents (Elt F) → (⟨S200000x128, .f32⟩ : BufTy).Contents (Elt F) → (⟨S200000x128, .f32⟩ : BufTy).Contents (Elt F)),
    StableHlo.binary main_arg0 main_arg5 main_v44 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v43 main_arg6 main_v45 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v44 main_v45 main_v46 (addf : (⟨S200000x128, .f32⟩ : BufTy).Contents (Elt F) → (⟨S200000x128, .f32⟩ : BufTy).Contents (Elt F) → (⟨S200000x128, .f32⟩ : BufTy).Contents (Elt F)),
    StableHlo.unary main_arg7 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S200000x128 ![0, 1] bcast_S1x128_S200000x128_0_1 : (⟨S1x128, .f32⟩ : BufTy).Contents (Elt F) → (⟨S200000x128, .f32⟩ : BufTy).Contents (Elt F)),
    StableHlo.binary main_v46 main_v48 main_v49 (addf : (⟨S200000x128, .f32⟩ : BufTy).Contents (Elt F) → (⟨S200000x128, .f32⟩ : BufTy).Contents (Elt F) → (⟨S200000x128, .f32⟩ : BufTy).Contents (Elt F)),
    StableHlo.nullary main_cst_10 (constant S_ .f32 0x3C23D70A#32),
    StableHlo.nullary main_call0_cst (constant S_ .f32 0x00000000#32),
    StableHlo.unary main_call0_cst main_call0_v0 (broadcastInDim S200000x128 ![] bcast_S_S200000x128 : (⟨S_, .f32⟩ : BufTy).Contents (Elt F) → (⟨S200000x128, .f32⟩ : BufTy).Contents (Elt F)),
    StableHlo.binary main_v24 main_call0_v0 main_call0_v1 (cmpf .oge : (⟨S200000x128, .f32⟩ : BufTy).Contents (Elt F) → (⟨S200000x128, .f32⟩ : BufTy).Contents (Elt F) → (⟨S200000x128, .i1⟩ : BufTy).Contents (Elt F)),
    StableHlo.unary main_cst_10 main_call0_v2 ((fun s => s) : (⟨S_, .f32⟩ : BufTy).Contents (Elt F) → (⟨S_, .f32⟩ : BufTy).Contents (Elt F)),
    StableHlo.unary main_call0_v2 main_call0_v3 (broadcastInDim S200000x128 ![] bcast_S_S200000x128 : (⟨S_, .f32⟩ : BufTy).Contents (Elt F) → (⟨S200000x128, .f32⟩ : BufTy).Contents (Elt F)),
    StableHlo.binary main_call0_v3 main_v24 main_call0_v4 (mulf : (⟨S200000x128, .f32⟩ : BufTy).Contents (Elt F) → (⟨S200000x128, .f32⟩ : BufTy).Contents (Elt F) → (⟨S200000x128, .f32⟩ : BufTy).Contents (Elt F)),
    StableHlo.ternary main_call0_v1 main_v24 main_call0_v4 main_v50 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)),
    StableHlo.nullary main_cst_11 (constant S_ .f32 0x3C23D70A#32),
    StableHlo.nullary main_call1_cst (constant S_ .f32 0x00000000#32),
    StableHlo.unary main_call1_cst main_call1_v0 (broadcastInDim S200000x128 ![] bcast_S_S200000x128 : (⟨S_, .f32⟩ : BufTy).Contents (Elt F) → (⟨S200000x128, .f32⟩ : BufTy).Contents (Elt F)),
    StableHlo.binary main_v49 main_call1_v0 main_call1_v1 (cmpf .oge : (⟨S200000x128, .f32⟩ : BufTy).Contents (Elt F) → (⟨S200000x128, .f32⟩ : BufTy).Contents (Elt F) → (⟨S200000x128, .i1⟩ : BufTy).Contents (Elt F)),
    StableHlo.unary main_cst_11 main_call1_v2 ((fun s => s) : (⟨S_, .f32⟩ : BufTy).Contents (Elt F) → (⟨S_, .f32⟩ : BufTy).Contents (Elt F)),
    StableHlo.unary main_call1_v2 main_call1_v3 (broadcastInDim S200000x128 ![] bcast_S_S200000x128 : (⟨S_, .f32⟩ : BufTy).Contents (Elt F) → (⟨S200000x128, .f32⟩ : BufTy).Contents (Elt F)),
    StableHlo.binary main_call1_v3 main_v49 main_call1_v4 (mulf : (⟨S200000x128, .f32⟩ : BufTy).Contents (Elt F) → (⟨S200000x128, .f32⟩ : BufTy).Contents (Elt F) → (⟨S200000x128, .f32⟩ : BufTy).Contents (Elt F)),
    StableHlo.ternary main_call1_v1 main_v49 main_call1_v4 main_v51 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)),
    StableHlo.nullary main_c_12 (constantI S_ 32 0#32),
    StableHlo.unary main_c_12 main_v52 (broadcastInDim S500000 ![] bcast_S_S500000 : (⟨S_, .i32⟩ : BufTy).Contents (Elt F) → (⟨S500000, .i32⟩ : BufTy).Contents (Elt F)),
    StableHlo.binary main_arg14 main_v52 main_v53 (cmpi .slt : (⟨S500000, .i32⟩ : BufTy).Contents (Elt F) → (⟨S500000, .i32⟩ : BufTy).Contents (Elt F) → (⟨S500000, .i1⟩ : BufTy).Contents (Elt F)),
    StableHlo.nullary main_c_13 (constantI S_ 32 200000#32),
    StableHlo.unary main_c_13 main_v54 (broadcastInDim S500000 ![] bcast_S_S500000 : (⟨S_, .i32⟩ : BufTy).Contents (Elt F) → (⟨S500000, .i32⟩ : BufTy).Contents (Elt F)),
    StableHlo.binary main_arg14 main_v54 main_v55 (addi : (⟨S500000, .i32⟩ : BufTy).Contents (Elt F) → (⟨S500000, .i32⟩ : BufTy).Contents (Elt F) → (⟨S500000, .i32⟩ : BufTy).Contents (Elt F)),
    StableHlo.ternary main_v53 main_v55 main_arg14 main_v56 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v56 main_v57 (broadcastInDim S500000x1 ![0] bcast_S500000_S500000x1_0 : (⟨S500000, .i32⟩ : BufTy).Contents (Elt F) → (⟨S500000x1, .i32⟩ : BufTy).Contents (Elt F)),
    StableHlo.binary main_v51 main_v57 main_v58 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.nullary main_cst_14 (constant S_ .f32 0x00000000#32),
    StableHlo.unary main_cst_14 main_v59 (broadcastInDim S200000x128 ![] bcast_S_S200000x128 : (⟨S_, .f32⟩ : BufTy).Contents (Elt F) → (⟨S200000x128, .f32⟩ : BufTy).Contents (Elt F)),
    StableHlo.unary main_arg15 main_v60 (broadcastInDim S500000x1 ![0] bcast_S500000_S500000x1_0 : (⟨S500000, .i32⟩ : BufTy).Contents (Elt F) → (⟨S500000x1, .i32⟩ : BufTy).Contents (Elt F)),
    StableHlo.ternary main_v59 main_v60 main_v58 main_v61 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_15 (constant S_ .f32 0x3F800000#32),
    StableHlo.unary main_cst_15 main_v62 (broadcastInDim S500000 ![] bcast_S_S500000 : (⟨S_, .f32⟩ : BufTy).Contents (Elt F) → (⟨S500000, .f32⟩ : BufTy).Contents (Elt F)),
    StableHlo.nullary main_cst_16 (constant S_ .f32 0x00000000#32),
    StableHlo.unary main_cst_16 main_v63 (broadcastInDim S200000 ![] bcast_S_S200000 : (⟨S_, .f32⟩ : BufTy).Contents (Elt F) → (⟨S200000, .f32⟩ : BufTy).Contents (Elt F)),
    StableHlo.unary main_arg15 main_v64 (broadcastInDim S500000x1 ![0] bcast_S500000_S500000x1_0 : (⟨S500000, .i32⟩ : BufTy).Contents (Elt F) → (⟨S500000x1, .i32⟩ : BufTy).Contents (Elt F)),
    StableHlo.ternary main_v63 main_v64 main_v62 main_v65 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_17 (constant S_ .f32 0x3F800000#32),
    StableHlo.unary main_cst_17 main_v66 (broadcastInDim S200000 ![] bcast_S_S200000 : (⟨S_, .f32⟩ : BufTy).Contents (Elt F) → (⟨S200000, .f32⟩ : BufTy).Contents (Elt F)),
    StableHlo.binary main_v65 main_v66 main_v67 (maximumf : (⟨S200000, .f32⟩ : BufTy).Contents (Elt F) → (⟨S200000, .f32⟩ : BufTy).Contents (Elt F) → (⟨S200000, .f32⟩ : BufTy).Contents (Elt F)),
    StableHlo.unary main_v67 main_v68 (broadcastInDim S200000x1 ![0] bcast_S200000_S200000x1_0 : (⟨S200000, .f32⟩ : BufTy).Contents (Elt F) → (⟨S200000x1, .f32⟩ : BufTy).Contents (Elt F)),
    StableHlo.unary main_v68 main_v69 (broadcastInDim S200000x128 ![0, 1] bcast_S200000x1_S200000x128_0_1 : (⟨S200000x1, .f32⟩ : BufTy).Contents (Elt F) → (⟨S200000x128, .f32⟩ : BufTy).Contents (Elt F)),
    StableHlo.binary main_v61 main_v69 main_v70 (Host.divf : (⟨S200000x128, .f32⟩ : BufTy).Contents (Elt F) → (⟨S200000x128, .f32⟩ : BufTy).Contents (Elt F) → (⟨S200000x128, .f32⟩ : BufTy).Contents (Elt F)),
    StableHlo.binary main_v50 main_arg8 main_v71 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v70 main_arg9 main_v72 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v71 main_v72 main_v73 (addf : (⟨S200000x128, .f32⟩ : BufTy).Contents (Elt F) → (⟨S200000x128, .f32⟩ : BufTy).Contents (Elt F) → (⟨S200000x128, .f32⟩ : BufTy).Contents (Elt F)),
    StableHlo.unary main_arg10 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S200000x128 ![0, 1] bcast_S1x128_S200000x128_0_1 : (⟨S1x128, .f32⟩ : BufTy).Contents (Elt F) → (⟨S200000x128, .f32⟩ : BufTy).Contents (Elt F)),
    StableHlo.binary main_v73 main_v75 main_v76 (addf : (⟨S200000x128, .f32⟩ : BufTy).Contents (Elt F) → (⟨S200000x128, .f32⟩ : BufTy).Contents (Elt F) → (⟨S200000x128, .f32⟩ : BufTy).Contents (Elt F)),
    StableHlo.nullary main_c_18 (constantI S_ 32 0#32),
    StableHlo.unary main_c_18 main_v77 (broadcastInDim S500000 ![] bcast_S_S500000 : (⟨S_, .i32⟩ : BufTy).Contents (Elt F) → (⟨S500000, .i32⟩ : BufTy).Contents (Elt F)),
    StableHlo.binary main_arg16 main_v77 main_v78 (cmpi .slt : (⟨S500000, .i32⟩ : BufTy).Contents (Elt F) → (⟨S500000, .i32⟩ : BufTy).Contents (Elt F) → (⟨S500000, .i1⟩ : BufTy).Contents (Elt F)),
    StableHlo.nullary main_c_19 (constantI S_ 32 200000#32),
    StableHlo.unary main_c_19 main_v79 (broadcastInDim S500000 ![] bcast_S_S500000 : (⟨S_, .i32⟩ : BufTy).Contents (Elt F) → (⟨S500000, .i32⟩ : BufTy).Contents (Elt F)),
    StableHlo.binary main_arg16 main_v79 main_v80 (addi : (⟨S500000, .i32⟩ : BufTy).Contents (Elt F) → (⟨S500000, .i32⟩ : BufTy).Contents (Elt F) → (⟨S500000, .i32⟩ : BufTy).Contents (Elt F)),
    StableHlo.ternary main_v78 main_v80 main_arg16 main_v81 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v81 main_v82 (broadcastInDim S500000x1 ![0] bcast_S500000_S500000x1_0 : (⟨S500000, .i32⟩ : BufTy).Contents (Elt F) → (⟨S500000x1, .i32⟩ : BufTy).Contents (Elt F)),
    StableHlo.binary main_v50 main_v82 main_v83 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.nullary main_cst_20 (constant S_ .f32 0x00000000#32),
    StableHlo.unary main_cst_20 main_v84 (broadcastInDim S200000x128 ![] bcast_S_S200000x128 : (⟨S_, .f32⟩ : BufTy).Contents (Elt F) → (⟨S200000x128, .f32⟩ : BufTy).Contents (Elt F)),
    StableHlo.unary main_arg17 main_v85 (broadcastInDim S500000x1 ![0] bcast_S500000_S500000x1_0 : (⟨S500000, .i32⟩ : BufTy).Contents (Elt F) → (⟨S500000x1, .i32⟩ : BufTy).Contents (Elt F)),
    StableHlo.ternary main_v84 main_v85 main_v83 main_v86 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_21 (constant S_ .f32 0x3F800000#32),
    StableHlo.unary main_cst_21 main_v87 (broadcastInDim S500000 ![] bcast_S_S500000 : (⟨S_, .f32⟩ : BufTy).Contents (Elt F) → (⟨S500000, .f32⟩ : BufTy).Contents (Elt F)),
    StableHlo.nullary main_cst_22 (constant S_ .f32 0x00000000#32),
    StableHlo.unary main_cst_22 main_v88 (broadcastInDim S200000 ![] bcast_S_S200000 : (⟨S_, .f32⟩ : BufTy).Contents (Elt F) → (⟨S200000, .f32⟩ : BufTy).Contents (Elt F)),
    StableHlo.unary main_arg17 main_v89 (broadcastInDim S500000x1 ![0] bcast_S500000_S500000x1_0 : (⟨S500000, .i32⟩ : BufTy).Contents (Elt F) → (⟨S500000x1, .i32⟩ : BufTy).Contents (Elt F)),
    StableHlo.ternary main_v88 main_v89 main_v87 main_v90 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_23 (constant S_ .f32 0x3F800000#32),
    StableHlo.unary main_cst_23 main_v91 (broadcastInDim S200000 ![] bcast_S_S200000 : (⟨S_, .f32⟩ : BufTy).Contents (Elt F) → (⟨S200000, .f32⟩ : BufTy).Contents (Elt F)),
    StableHlo.binary main_v90 main_v91 main_v92 (maximumf : (⟨S200000, .f32⟩ : BufTy).Contents (Elt F) → (⟨S200000, .f32⟩ : BufTy).Contents (Elt F) → (⟨S200000, .f32⟩ : BufTy).Contents (Elt F)),
    StableHlo.unary main_v92 main_v93 (broadcastInDim S200000x1 ![0] bcast_S200000_S200000x1_0 : (⟨S200000, .f32⟩ : BufTy).Contents (Elt F) → (⟨S200000x1, .f32⟩ : BufTy).Contents (Elt F)),
    StableHlo.unary main_v93 main_v94 (broadcastInDim S200000x128 ![0, 1] bcast_S200000x1_S200000x128_0_1 : (⟨S200000x1, .f32⟩ : BufTy).Contents (Elt F) → (⟨S200000x128, .f32⟩ : BufTy).Contents (Elt F)),
    StableHlo.binary main_v86 main_v94 main_v95 (Host.divf : (⟨S200000x128, .f32⟩ : BufTy).Contents (Elt F) → (⟨S200000x128, .f32⟩ : BufTy).Contents (Elt F) → (⟨S200000x128, .f32⟩ : BufTy).Contents (Elt F)),
    StableHlo.binary main_v51 main_arg11 main_v96 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v95 main_arg12 main_v97 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v96 main_v97 main_v98 (addf : (⟨S200000x128, .f32⟩ : BufTy).Contents (Elt F) → (⟨S200000x128, .f32⟩ : BufTy).Contents (Elt F) → (⟨S200000x128, .f32⟩ : BufTy).Contents (Elt F)),
    StableHlo.unary main_arg13 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S200000x128 ![0, 1] bcast_S1x128_S200000x128_0_1 : (⟨S1x128, .f32⟩ : BufTy).Contents (Elt F) → (⟨S200000x128, .f32⟩ : BufTy).Contents (Elt F)),
    StableHlo.binary main_v98 main_v100 main_v101 (addf : (⟨S200000x128, .f32⟩ : BufTy).Contents (Elt F) → (⟨S200000x128, .f32⟩ : BufTy).Contents (Elt F) → (⟨S200000x128, .f32⟩ : BufTy).Contents (Elt F)) ]

/-- The last three operations: each second-layer table given a leading axis of length one, and the two stacked. -/
abbrev stacking : List (HloOp τ sig (Elt F)) :=
  [ StableHlo.unary main_v101 main_v102 (broadcastInDim S1x200000x128 ![1, 2] bcast_S200000x128_S1x200000x128_1_2 : (⟨S200000x128, .f32⟩ : BufTy).Contents (Elt F) → (⟨S1x200000x128, .f32⟩ : BufTy).Contents (Elt F)),
    StableHlo.unary main_v76 main_v103 (broadcastInDim S1x200000x128 ![1, 2] bcast_S200000x128_S1x200000x128_1_2 : (⟨S200000x128, .f32⟩ : BufTy).Contents (Elt F) → (⟨S1x200000x128, .f32⟩ : BufTy).Contents (Elt F)),
    StableHlo.binary main_v102 main_v103 main_v104 ((fun a b => concatenate S2x200000x128 0 [⟨S1x200000x128, a⟩, ⟨S1x200000x128, b⟩] concatenates_S1x200000x128_S1x200000x128_S2x200000x128_d0) : (⟨S1x200000x128, .f32⟩ : BufTy).Contents (Elt F) → (⟨S1x200000x128, .f32⟩ : BufTy).Contents (Elt F) → (⟨S2x200000x128, .f32⟩ : BufTy).Contents (Elt F)) ]

set_option maxRecDepth 8192 in
theorem ops_split : (ops : List (HloOp τ sig (Elt F))) = front ++ stacking := rfl

/-- Running two lines one after the other folds the second over what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- From any contents, the last three operations leave the result buffer at the stack of the two tables. -/
theorem stacking_eq (W : Valuation τ sig (Elt Ideal)) :
    after (stacking (F := Ideal)) W (main_v104 : DevRef τ sig)
      = Cert.Sage.stack (W (main_v101 : DevRef τ sig)) (W (main_v76 : DevRef τ sig)) := by
  after_results
  rfl

set_option maxRecDepth 8192 in
set_option maxHeartbeats 40000000 in
/-- The first stacked table: the second item-to-user layer over the two rectified first-layer tables.  Each
    operation's result is read off at its own buffer and passed over at every other; what is left is the
    definition of the layer unfolded. -/
theorem v101_eq (V : Valuation τ sig (Elt Ideal)) :
    after (front (F := Ideal)) V (main_v101 : DevRef τ sig)
      = Cert.Sage.sage (Cert.Sage.leaky (Cert.Sage.sage (V (main_arg0 : DevRef τ sig)) (V (main_arg1 : DevRef τ sig)) (V (main_arg14 : DevRef τ sig)) (V (main_arg15 : DevRef τ sig)) (V (main_arg2 : DevRef τ sig)) (V (main_arg3 : DevRef τ sig)) (V (main_arg4 : DevRef τ sig)))) (Cert.Sage.leaky (Cert.Sage.sage (V (main_arg1 : DevRef τ sig)) (V (main_arg0 : DevRef τ sig)) (V (main_arg16 : DevRef τ sig)) (V (main_arg17 : DevRef τ sig)) (V (main_arg5 : DevRef τ sig)) (V (main_arg6 : DevRef τ sig)) (V (main_arg7 : DevRef τ sig)))) (V (main_arg16 : DevRef τ sig)) (V (main_arg17 : DevRef τ sig)) (V (main_arg11 : DevRef τ sig)) (V (main_arg12 : DevRef τ sig)) (V (main_arg13 : DevRef τ sig)) := by
  after_results_simp
  simp only [Cert.Sage.sage, Cert.Sage.linear, Cert.Sage.linearRow, Cert.Sage.leaky, Cert.Sage.nbrMean, Cert.Sage.wrapIdx]

set_option maxRecDepth 8192 in
set_option maxHeartbeats 40000000 in
/-- The second stacked table: the second user-to-item layer, likewise. -/
theorem v76_eq (V : Valuation τ sig (Elt Ideal)) :
    after (front (F := Ideal)) V (main_v76 : DevRef τ sig)
      = Cert.Sage.sage (Cert.Sage.leaky (Cert.Sage.sage (V (main_arg1 : DevRef τ sig)) (V (main_arg0 : DevRef τ sig)) (V (main_arg16 : DevRef τ sig)) (V (main_arg17 : DevRef τ sig)) (V (main_arg5 : DevRef τ sig)) (V (main_arg6 : DevRef τ sig)) (V (main_arg7 : DevRef τ sig)))) (Cert.Sage.leaky (Cert.Sage.sage (V (main_arg0 : DevRef τ sig)) (V (main_arg1 : DevRef τ sig)) (V (main_arg14 : DevRef τ sig)) (V (main_arg15 : DevRef τ sig)) (V (main_arg2 : DevRef τ sig)) (V (main_arg3 : DevRef τ sig)) (V (main_arg4 : DevRef τ sig)))) (V (main_arg14 : DevRef τ sig)) (V (main_arg15 : DevRef τ sig)) (V (main_arg8 : DevRef τ sig)) (V (main_arg9 : DevRef τ sig)) (V (main_arg10 : DevRef τ sig)) := by
  after_results_simp
  simp only [Cert.Sage.sage, Cert.Sage.linear, Cert.Sage.linearRow, Cert.Sage.leaky, Cert.Sage.nbrMean, Cert.Sage.wrapIdx]

/-- The fold at the result buffer is the network of the argument buffers' contents. -/
theorem out_eq (V : Valuation τ sig (Elt Ideal)) :
    after (ops (F := Ideal)) V (main_v104 : DevRef τ sig)
      = Cert.Sage.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [ops_split, after_app, stacking_eq, v101_eq, v76_eq]
  rfl

/-! No operation writes an argument buffer: the fold leaves each of the eighteen at its launch contents. -/

set_option maxRecDepth 8192 in
set_option maxHeartbeats 4000000 in
theorem arg0_eq (V : Valuation τ sig (Elt F)) :
    after (ops (F := F)) V (main_arg0 : DevRef τ sig) = V (main_arg0 : DevRef τ sig) := by
  after_results_simp

set_option maxRecDepth 8192 in
set_option maxHeartbeats 4000000 in
theorem arg1_eq (V : Valuation τ sig (Elt F)) :
    after (ops (F := F)) V (main_arg1 : DevRef τ sig) = V (main_arg1 : DevRef τ sig) := by
  after_results_simp

set_option maxRecDepth 8192 in
set_option maxHeartbeats 4000000 in
theorem arg2_eq (V : Valuation τ sig (Elt F)) :
    after (ops (F := F)) V (main_arg2 : DevRef τ sig) = V (main_arg2 : DevRef τ sig) := by
  after_results_simp

set_option maxRecDepth 8192 in
set_option maxHeartbeats 4000000 in
theorem arg3_eq (V : Valuation τ sig (Elt F)) :
    after (ops (F := F)) V (main_arg3 : DevRef τ sig) = V (main_arg3 : DevRef τ sig) := by
  after_results_simp

set_option maxRecDepth 8192 in
set_option maxHeartbeats 4000000 in
theorem arg4_eq (V : Valuation τ sig (Elt F)) :
    after (ops (F := F)) V (main_arg4 : DevRef τ sig) = V (main_arg4 : DevRef τ sig) := by
  after_results_simp

set_option maxRecDepth 8192 in
set_option maxHeartbeats 4000000 in
theorem arg5_eq (V : Valuation τ sig (Elt F)) :
    after (ops (F := F)) V (main_arg5 : DevRef τ sig) = V (main_arg5 : DevRef τ sig) := by
  after_results_simp

set_option maxRecDepth 8192 in
set_option maxHeartbeats 4000000 in
theorem arg6_eq (V : Valuation τ sig (Elt F)) :
    after (ops (F := F)) V (main_arg6 : DevRef τ sig) = V (main_arg6 : DevRef τ sig) := by
  after_results_simp

set_option maxRecDepth 8192 in
set_option maxHeartbeats 4000000 in
theorem arg7_eq (V : Valuation τ sig (Elt F)) :
    after (ops (F := F)) V (main_arg7 : DevRef τ sig) = V (main_arg7 : DevRef τ sig) := by
  after_results_simp

set_option maxRecDepth 8192 in
set_option maxHeartbeats 4000000 in
theorem arg8_eq (V : Valuation τ sig (Elt F)) :
    after (ops (F := F)) V (main_arg8 : DevRef τ sig) = V (main_arg8 : DevRef τ sig) := by
  after_results_simp

set_option maxRecDepth 8192 in
set_option maxHeartbeats 4000000 in
theorem arg9_eq (V : Valuation τ sig (Elt F)) :
    after (ops (F := F)) V (main_arg9 : DevRef τ sig) = V (main_arg9 : DevRef τ sig) := by
  after_results_simp

set_option maxRecDepth 8192 in
set_option maxHeartbeats 4000000 in
theorem arg10_eq (V : Valuation τ sig (Elt F)) :
    after (ops (F := F)) V (main_arg10 : DevRef τ sig) = V (main_arg10 : DevRef τ sig) := by
  after_results_simp

set_option maxRecDepth 8192 in
set_option maxHeartbeats 4000000 in
theorem arg11_eq (V : Valuation τ sig (Elt F)) :
    after (ops (F := F)) V (main_arg11 : DevRef τ sig) = V (main_arg11 : DevRef τ sig) := by
  after_results_simp

set_option maxRecDepth 8192 in
set_option maxHeartbeats 4000000 in
theorem arg12_eq (V : Valuation τ sig (Elt F)) :
    after (ops (F := F)) V (main_arg12 : DevRef τ sig) = V (main_arg12 : DevRef τ sig) := by
  after_results_simp

set_option maxRecDepth 8192 in
set_option maxHeartbeats 4000000 in
theorem arg13_eq (V : Valuation τ sig (Elt F)) :
    after (ops (F := F)) V (main_arg13 : DevRef τ sig) = V (main_arg13 : DevRef τ sig) := by
  after_results_simp

set_option maxRecDepth 8192 in
set_option maxHeartbeats 4000000 in
theorem arg14_eq (V : Valuation τ sig (Elt F)) :
    after (ops (F := F)) V (main_arg14 : DevRef τ sig) = V (main_arg14 : DevRef τ sig) := by
  after_results_simp

set_option maxRecDepth 8192 in
set_option maxHeartbeats 4000000 in
theorem arg15_eq (V : Valuation τ sig (Elt F)) :
    after (ops (F := F)) V (main_arg15 : DevRef τ sig) = V (main_arg15 : DevRef τ sig) := by
  after_results_simp

set_option maxRecDepth 8192 in
set_option maxHeartbeats 4000000 in
theorem arg16_eq (V : Valuation τ sig (Elt F)) :
    after (ops (F := F)) V (main_arg16 : DevRef τ sig) = V (main_arg16 : DevRef τ sig) := by
  after_results_simp

set_option maxRecDepth 8192 in
set_option maxHeartbeats 4000000 in
theorem arg17_eq (V : Valuation τ sig (Elt F)) :
    after (ops (F := F)) V (main_arg17 : DevRef τ sig) = V (main_arg17 : DevRef τ sig) := by
  after_results_simp

/-- On every device, from any memory with zero counters: every weakly fair execution of the program terminates with
    the result buffer at the network of the arguments' launch contents and every argument buffer unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v104)
          = Cert.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v104).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c))⟩)
    (run_seq scopedRefs_eq scopedSems_eq defs main (fun _ => ops) main_eq (fun _ => ops_sub) m ρ)

end Cert.ReferenceIdeal.RefValue

end
-- ==== Proof.lean ====
/-
  A two-layer heterogeneous mean-aggregation network (two node types, two relations), computed by four fused
  row-blocked kernels among host gathers and scatter-adds, against the same network computed on whole tables.

  Both programs compute the neighbour means on the host with the same operations (wrap the source index, gather the
  source rows, scatter-add by destination, divide by the in-degree clipped below at one).  Where the reference then
  forms  x · W_self + mean · W_neigh + b  on whole [200000, 128] tables and applies the leaky rectifier, the kernel
  program hands blocks of 5000 rows to a kernel that rounds its operands to bf16, multiplies into zero accumulators,
  adds the bias row and (in the first layer) rectifies.  Over the extended reals rounding is the identity, a product
  into a zero accumulator is the host's product, rows of a product depend on the same rows of the left factor only, and
  the rectifier's  h · c  is the reference's  c · h ; the forty blocks tile the table.  So each region's output array is
  the reference's layer of the arrays the region finds, and, the host operations around the regions being the
  reference's own, both programs end at one function of the eighteen arguments (Cert.Sage.out).  Nothing is assumed
  finite: the two sides apply the same operations in the same grouping.

  The three frames: the word-level and the idealized kernel program by their generated frame certificates, the
  reference by its run with the result forgotten.  The idealization rewrote no operation.
-/
import proofs.«144046_j51711406244226_1_alg».proof.Defs
import proofs.«144046_j51711406244226_1_alg».proof.Proof.Gen.Kernel
import proofs.«144046_j51711406244226_1_alg».proof.Proof.Gen.Kernel.Skeleton
import proofs.«144046_j51711406244226_1_alg».proof.Proof.Gen.Kernel.Launch
import proofs.«144046_j51711406244226_1_alg».proof.Proof.Gen.Kernel.Points
import proofs.«144046_j51711406244226_1_alg».proof.Proof.Gen.Kernel.Frame
import proofs.«144046_j51711406244226_1_alg».proof.Proof.Gen.KernelIdeal
import proofs.«144046_j51711406244226_1_alg».proof.Proof.Gen.KernelIdeal.Skeleton
import proofs.«144046_j51711406244226_1_alg».proof.Proof.Gen.KernelIdeal.Launch
import proofs.«144046_j51711406244226_1_alg».proof.Proof.Gen.KernelIdeal.Points
import proofs.«144046_j51711406244226_1_alg».proof.Proof.Gen.KernelIdeal.Frame
import proofs.«144046_j51711406244226_1_alg».proof.Proof.Gen.ReferenceIdeal
import proofs.«144046_j51711406244226_1_alg».proof.Proof.Gen.Pre_finite_inputs
import proofs.«144046_j51711406244226_1_alg».proof.Proof.KernelValue
import proofs.«144046_j51711406244226_1_alg».proof.Proof.RefRun
import Idealize.ShloMosaic.Adequacy
import Idealize.ShloMosaic.Init

noncomputable section

namespace Cert.Proof

open Idealize.ShloMosaic Idealize.SL.Sem

/-- The word-level program terminates without a fault and leaves its arguments as launched. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Over the extended reals both programs end at the same network of their arguments: the kernel program's four
    regions compute, block of rows by block of rows, the two matrix products, the bias and (in the first layer) the
    rectifier that the reference computes on whole tables, and the host operations around them are the reference's. -/
theorem algebraic : Cert.algebraic_KernelIdeal_ReferenceIdeal := by
  intro m ρ m' ρ' _ hagree
  refine ⟨fun c => Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
